-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024 : Shape := ⟨1, ![1024]⟩
abbrev S16384x512 : Shape := ⟨2, ![16384, 512]⟩
abbrev S16384 : Shape := ⟨1, ![16384]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S1024x512 .f32) (main_arg1 : IVec S1024 32) (main_arg2 : FVec F S16384x512 .f32) (main_arg3 : FVec F S16384 .f32) (main_arg4 : FVec F S16384 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S16384x512 .f32 := Host.absf main_arg2
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S16384 .f32 := Host.absf main_arg4
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S1024x512 : Shape := ⟨2, ![1024, 512]⟩
abbrev S1024 : Shape := ⟨1, ![1024]⟩
abbrev S16384x512 : Shape := ⟨2, ![16384, 512]⟩
abbrev S16384 : Shape := ⟨1, ![16384]⟩
abbrev S1024x1 : Shape := ⟨2, ![1024, 1]⟩
abbrev S1x16384 : Shape := ⟨2, ![1, 16384]⟩
abbrev S_ : Shape := ⟨0, ![]⟩
abbrev S16384x1 : Shape := ⟨2, ![16384, 1]⟩
abbrev S4x16x128 : Shape := ⟨3, ![4, 16, 128]⟩
abbrev S512x512 : Shape := ⟨2, ![512, 512]⟩
abbrev S1x512 : Shape := ⟨2, ![1, 512]⟩
abbrev S4x8x128 : Shape := ⟨3, ![4, 8, 128]⟩
abbrev S512 : Shape := ⟨1, ![512]⟩
abbrev S1 : Shape := ⟨1, ![1]⟩
abbrev S1x1 : Shape := ⟨2, ![1, 1]⟩
abbrev S1x8x128 : Shape := ⟨3, ![1, 8, 128]⟩
abbrev S8x128 : Shape := ⟨2, ![8, 128]⟩
abbrev S4x2x8x128 : Shape := ⟨4, ![4, 2, 8, 128]⟩
abbrev S4x2x1x1 : Shape := ⟨4, ![4, 2, 1, 1]⟩
abbrev S4x2 : Shape := ⟨2, ![4, 2]⟩
abbrev S4 : Shape := ⟨1, ![4]⟩

abbrev nBuf : Space → Nat
  | .hbm => 36
  | .vmem => 12
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S16384x512, .f32⟩
  | .hbm, ⟨3, _⟩ => ⟨S16384, .f32⟩
  | .hbm, ⟨4, _⟩ => ⟨S16384, .f32⟩
  | .hbm, ⟨5, _⟩ => ⟨S1024x1, .i32⟩
  | .hbm, ⟨6, _⟩ => ⟨S1x16384, .f32⟩
  | .hbm, ⟨7, _⟩ => ⟨S1x16384, .f32⟩
  | .hbm, ⟨8, _⟩ => ⟨S1024x512, .bf16⟩
  | .hbm, ⟨9, _⟩ => ⟨S16384x512, .bf16⟩
  | .hbm, ⟨10, _⟩ => ⟨S16384x512, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S1x16384, .f32⟩
  | .hbm, ⟨19, _⟩ => ⟨S4x16x128, .f32⟩
  | .hbm, ⟨20, _⟩ => ⟨S4x2x8x128, .f32⟩
  | .hbm, ⟨21, _⟩ => ⟨S4x2x1x1, .f32⟩
  | .hbm, ⟨22, _⟩ => ⟨S4x2, .f32⟩
  | .hbm, ⟨23, _⟩ => ⟨S_, .f32⟩
  | .hbm, ⟨24, _⟩ => ⟨S4, .f32⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1024x512, .bf16⟩
  | .local _ .vmem, ⟨1, _⟩ => ⟨S1024x1, .i32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S4x8x128, .f32⟩
  | .local _ .vmem, ⟨11, _⟩ => ⟨S4x8x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S1024_S1024x1 : S1024.ShapeCasts S1024x1
  shapeCasts_S16384_S1x16384 : S16384.ShapeCasts S1x16384
  bitsLt_bf16_f32 : FTy.bits .bf16 < FTy.bits .f32
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x1_S1x16384 : S16384x1.ShapeCasts S1x16384
  inb_S4x8x128_S4x8x128_0_0_0 : ∀ a, (![0, 0, 0] : Fin 3 → Nat) a + S4x8x128.size a ≤ S4x8x128.size a
  h_S4x8x128 : 0 < S4x8x128.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  iota_S1x512_d1_w32 : S1x512.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  natLt_1_32 : 1 < 32
  reduces_S1024x512_S512 : S1024x512.Reduces [0] S512
  shapeCasts_S512_S1x512 : S512.ShapeCasts S1x512
  reduces_S1x512_S1 : S1x512.Reduces [1] S1
  shapeCasts_S1_S1x1 : S1.ShapeCasts S1x1
  inb_S4x8x128_S1x8x128_0_0_0 : ∀ a, (![0, 0, 0] : Fin 3 → Nat) a + S1x8x128.size a ≤ S4x8x128.size a
  h_S1x8x128 : 0 < S1x8x128.numel
  shapeCasts_S1x8x128_S8x128 : S1x8x128.ShapeCasts S8x128
  shapeCasts_S1x1_S1x1 : S1x1.ShapeCasts S1x1
  broadcasts_S1x1_S8x128 : S1x1.Broadcasts S8x128
  shapeCasts_S8x128_S1x8x128 : S8x128.ShapeCasts S1x8x128
  inb_S4x8x128_S1x8x128_1_0_0 : ∀ a, (![1, 0, 0] : Fin 3 → Nat) a + S1x8x128.size a ≤ S4x8x128.size a
  inb_S4x8x128_S1x8x128_2_0_0 : ∀ a, (![2, 0, 0] : Fin 3 → Nat) a + S1x8x128.size a ≤ S4x8x128.size a
  inb_S4x8x128_S1x8x128_3_0_0 : ∀ a, (![3, 0, 0] : Fin 3 → Nat) a + S1x8x128.size a ≤ S4x8x128.size a
  shapeCasts_S4x16x128_S4x2x8x128 : S4x16x128.ShapeCasts S4x2x8x128
  slices_S4x2x8x128_S4x2x1x1_0_0_0_0 : S4x2x8x128.Slices ![0, 0, 0, 0] S4x2x1x1
  shapeCasts_S4x2x1x1_S4x2 : S4x2x1x1.ShapeCasts S4x2
  reducesTo_S4x2_S4_d1 : S4x2.ReducesTo [1] S4
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .bf16 = 32 ∨ (Rect.block (s := S1024x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S1024x1.size a
  hwx0_1 : ∀ i : grid0.Coords, EltTy.bits .i32 = 32 ∨ (Rect.block (s := S1024x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .bf16 = 32 ∨ (Rect.block (s := S16384x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x16384.size a
  hwx0_3 : ∀ i : grid0.Coords, EltTy.bits .f32 = 32 ∨ (Rect.block (s := S1x16384) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x16384.size a
  hwx0_4 : ∀ i : grid0.Coords, EltTy.bits .f32 = 32 ∨ (Rect.block (s := S1x16384) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x16384.size a
  hwx0_5 : ∀ i : grid0.Coords, EltTy.bits .f32 = 32 ∨ (Rect.block (s := S1x16384) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x8x128.size a ≤ S4x16x128.size a
  hwx0_6 : ∀ i : grid0.Coords, EltTy.bits .f32 = 32 ∨ (Rect.block (s := S4x16x128) S4x8x128.size (cc0_transform_6 i) (hinb0_6 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_v3) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S4x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024 : Shape := ⟨1, ![1024]⟩
abbrev S16384x512 : Shape := ⟨2, ![16384, 512]⟩
abbrev S16384 : Shape := ⟨1, ![16384]⟩
abbrev S1024x1 : Shape := ⟨2, ![1024, 1]⟩
abbrev S1x16384 : Shape := ⟨2, ![1, 16384]⟩
abbrev S1024x16384 : Shape := ⟨2, ![1024, 16384]⟩
abbrev S_ : Shape := ⟨0, ![]⟩
abbrev S16384x1 : Shape := ⟨2, ![16384, 1]⟩
abbrev S512x16384 : Shape := ⟨2, ![512, 16384]⟩

abbrev nBuf : Space → Nat
  | .hbm => 126
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S16384x512, .f32⟩
  | .hbm, ⟨3, _⟩ => ⟨S16384, .f32⟩
  | .hbm, ⟨4, _⟩ => ⟨S16384, .f32⟩
  | .hbm, ⟨5, _⟩ => ⟨S1024x1, .i32⟩
  | .hbm, ⟨6, _⟩ => ⟨S1x16384, .i32⟩
  | .hbm, ⟨7, _⟩ => ⟨S1024x16384, .i32⟩
  | .hbm, ⟨8, _⟩ => ⟨S1024x16384, .i32⟩
  | .hbm, ⟨9, _⟩ => ⟨S1024x16384, .i1⟩
  | .hbm, ⟨10, _⟩ => ⟨S1024x16384, .f32⟩
  | .hbm, ⟨11, _⟩ => ⟨S_, .f32⟩
  | .hbm, ⟨12, _⟩ => ⟨S1024x16384, .f32⟩
  | .hbm, ⟨13, _⟩ => ⟨S1024x16384, .f32⟩
  | .hbm, ⟨14, _⟩ => ⟨S16384x512, .f32⟩
  | .hbm, ⟨15, _⟩ => ⟨S_, .f32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S16384x1, .f32⟩
  | .hbm, ⟨22, _⟩ => ⟨S16384x512, .f32⟩
  | .hbm, ⟨23, _⟩ => ⟨S16384x512, .f32⟩
  | .hbm, ⟨24, _⟩ => ⟨S512x16384, .f32⟩
  | .hbm, ⟨25, _⟩ => ⟨S1024x16384, .f32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .i1⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S16384, .f32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S_, .f32⟩
  | .hbm, ⟨46, _⟩ => ⟨S16384, .f32⟩
  | .hbm, ⟨47, _⟩ => ⟨S16384, .f32⟩
  | .hbm, ⟨48, _⟩ => ⟨S16384, .f32⟩
  | .hbm, ⟨49, _⟩ => ⟨S_, .f32⟩
  | .hbm, ⟨50, _⟩ => ⟨S16384, .f32⟩
  | .hbm, ⟨51, _⟩ => ⟨S16384, .f32⟩
  | .hbm, ⟨52, _⟩ => ⟨S16384, .f32⟩
  | .hbm, ⟨53, _⟩ => ⟨S_, .f32⟩
  | .hbm, ⟨54, _⟩ => ⟨S_, .f32⟩
  | .hbm, ⟨55, _⟩ => ⟨S1x16384, .f32⟩
  | .hbm, ⟨56, _⟩ => ⟨S1024x16384, .f32⟩
  | .hbm, ⟨57, _⟩ => ⟨S1024x16384, .i1⟩
  | .hbm, ⟨58, _⟩ => ⟨S_, .f32⟩
  | .hbm, ⟨59, _⟩ => ⟨S16384, .f32⟩
  | .hbm, ⟨60, _⟩ => ⟨S16384, .f32⟩
  | .hbm, ⟨61, _⟩ => ⟨S_, .f32⟩
  | .hbm, ⟨62, _⟩ => ⟨S16384, .f32⟩
  | .hbm, ⟨63, _⟩ => ⟨S16384, .f32⟩
  | .hbm, ⟨64, _⟩ => ⟨S1x16384, .f32⟩
  | .hbm, ⟨65, _⟩ => ⟨S_, .f32⟩
  | .hbm, ⟨66, _⟩ => ⟨S_, .f32⟩
  | .hbm, ⟨67, _⟩ => ⟨S1024x16384, .f32⟩
  | .hbm, ⟨68, _⟩ => ⟨S1024x16384, .f32⟩
  | .hbm, ⟨69, _⟩ => ⟨S1024x16384, .f32⟩
  | .hbm, ⟨70, _⟩ => ⟨S_, .f32⟩
  | .hbm, ⟨71, _⟩ => ⟨S16384, .f32⟩
  | .hbm, ⟨72, _⟩ => ⟨S1024x16384, .f32⟩
  | .hbm, ⟨73, _⟩ => ⟨S_, .f32⟩
  | .hbm, ⟨74, _⟩ => ⟨S16384, .f32⟩
  | .hbm, ⟨75, _⟩ => ⟨S_, .f32⟩
  | .hbm, ⟨76, _⟩ => ⟨S16384, .f32⟩
  | .hbm, ⟨77, _⟩ => ⟨S16384, .f32⟩
  | .hbm, ⟨78, _⟩ => ⟨S16384, .f32⟩
  | .hbm, ⟨79, _⟩ => ⟨S_, .f32⟩
  | .hbm, ⟨80, _⟩ => ⟨S16384, .f32⟩
  | .hbm, ⟨81, _⟩ => ⟨S16384, .i1⟩
  | .hbm, ⟨82, _⟩ => ⟨S_, .f32⟩
  | .hbm, ⟨83, _⟩ => ⟨S_, .f32⟩
  | .hbm, ⟨84, _⟩ => ⟨S16384, .f32⟩
  | .hbm, ⟨85, _⟩ => ⟨S16384, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S1024x16384, .f32⟩
  | .hbm, ⟨90, _⟩ => ⟨S1024x16384, .i1⟩
  | .hbm, ⟨91, _⟩ => ⟨S_, .f32⟩
  | .hbm, ⟨92, _⟩ => ⟨S_, .f32⟩
  | .hbm, ⟨93, _⟩ => ⟨S1024x16384, .f32⟩
  | .hbm, ⟨94, _⟩ => ⟨S1024x16384, .f32⟩
  | .hbm, ⟨95, _⟩ => ⟨S_, .f32⟩
  | .hbm, ⟨96, _⟩ => ⟨S1024x16384, .f32⟩
  | .hbm, ⟨97, _⟩ => ⟨S1024x16384, .f32⟩
  | .hbm, ⟨98, _⟩ => ⟨S_, .f32⟩
  | .hbm, ⟨99, _⟩ => ⟨S1024x16384, .f32⟩
  | .hbm, ⟨100, _⟩ => ⟨S1024x16384, .f32⟩
  | .hbm, ⟨101, _⟩ => ⟨S1024x16384, .f32⟩
  | .hbm, ⟨102, _⟩ => ⟨S1024x16384, .f32⟩
  | .hbm, ⟨103, _⟩ => ⟨S1024x16384, .f32⟩
  | .hbm, ⟨104, _⟩ => ⟨S_, .f32⟩
  | .hbm, ⟨105, _⟩ => ⟨S16384, .f32⟩
  | .hbm, ⟨106, _⟩ => ⟨S16384, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S1024x16384, .f32⟩
  | .hbm, ⟨111, _⟩ => ⟨S1024x16384, .f32⟩
  | .hbm, ⟨112, _⟩ => ⟨S_, .f32⟩
  | .hbm, ⟨113, _⟩ => ⟨S1024x16384, .f32⟩
  | .hbm, ⟨114, _⟩ => ⟨S1024x16384, .f32⟩
  | .hbm, ⟨115, _⟩ => ⟨S1024x16384, .f32⟩
  | .hbm, ⟨116, _⟩ => ⟨S1024x16384, .f32⟩
  | .hbm, ⟨117, _⟩ => ⟨S1024x16384, .f32⟩
  | .hbm, ⟨118, _⟩ => ⟨S_, .f32⟩
  | .hbm, ⟨119, _⟩ => ⟨S16384, .f32⟩
  | .hbm, ⟨120, _⟩ => ⟨S16384, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_10 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_v37 : Ref sig .tc := ⟨.hbm, 60, rfl⟩
abbrev main_cst_12 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_13 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v41 : Ref sig .tc := ⟨.hbm, 69, rfl⟩
abbrev main_cst_14 : Ref sig .tc := ⟨.hbm, 70, rfl⟩
abbrev main_v42 : Ref sig .tc := ⟨.hbm, 71, rfl⟩
abbrev main_v43 : Ref sig .tc := ⟨.hbm, 72, rfl⟩
abbrev main_cst_15 : Ref sig .tc := ⟨.hbm, 73, rfl⟩
abbrev main_v44 : Ref sig .tc := ⟨.hbm, 74, rfl⟩
abbrev main_cst_16 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_17 : Ref sig .tc := ⟨.hbm, 79, rfl⟩
abbrev main_v48 : Ref sig .tc := ⟨.hbm, 80, rfl⟩
abbrev main_v49 : Ref sig .tc := ⟨.hbm, 81, rfl⟩
abbrev main_cst_18 : Ref sig .tc := ⟨.hbm, 82, rfl⟩
abbrev main_call2_v0 : Ref sig .tc := ⟨.hbm, 83, rfl⟩
abbrev main_call2_v1 : Ref sig .tc := ⟨.hbm, 84, rfl⟩
abbrev main_v50 : Ref sig .tc := ⟨.hbm, 85, rfl⟩
abbrev main_cst_19 : Ref sig .tc := ⟨.hbm, 86, rfl⟩
abbrev main_v51 : Ref sig .tc := ⟨.hbm, 87, rfl⟩
abbrev main_cst_20 : Ref sig .tc := ⟨.hbm, 88, rfl⟩
abbrev main_v52 : Ref sig .tc := ⟨.hbm, 89, rfl⟩
abbrev main_v53 : Ref sig .tc := ⟨.hbm, 90, rfl⟩
abbrev main_cst_21 : Ref sig .tc := ⟨.hbm, 91, rfl⟩
abbrev main_call3_v0 : Ref sig .tc := ⟨.hbm, 92, rfl⟩
abbrev main_call3_v1 : Ref sig .tc := ⟨.hbm, 93, rfl⟩
abbrev main_v54 : Ref sig .tc := ⟨.hbm, 94, rfl⟩
abbrev main_cst_22 : Ref sig .tc := ⟨.hbm, 95, rfl⟩
abbrev main_v55 : Ref sig .tc := ⟨.hbm, 96, rfl⟩
abbrev main_v56 : Ref sig .tc := ⟨.hbm, 97, rfl⟩
abbrev main_cst_23 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_24 : Ref sig .tc := ⟨.hbm, 104, rfl⟩
abbrev main_v62 : Ref sig .tc := ⟨.hbm, 105, rfl⟩
abbrev main_v63 : Ref sig .tc := ⟨.hbm, 106, rfl⟩
abbrev main_cst_25 : Ref sig .tc := ⟨.hbm, 107, rfl⟩
abbrev main_v64 : Ref sig .tc := ⟨.hbm, 108, rfl⟩
abbrev main_cst_26 : Ref sig .tc := ⟨.hbm, 109, rfl⟩
abbrev main_v65 : Ref sig .tc := ⟨.hbm, 110, rfl⟩
abbrev main_v66 : Ref sig .tc := ⟨.hbm, 111, rfl⟩
abbrev main_cst_27 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_28 : Ref sig .tc := ⟨.hbm, 118, rfl⟩
abbrev main_v72 : Ref sig .tc := ⟨.hbm, 119, rfl⟩
abbrev main_v73 : Ref sig .tc := ⟨.hbm, 120, rfl⟩
abbrev main_cst_29 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S1024x1_S1024x16384_0_1 : S1024x1.BroadcastsInDim S1024x16384 (![0, 1] : Fin 2 → Fin S1024x16384.rank)
  bcast_S1x16384_S1024x16384_0_1 : S1x16384.BroadcastsInDim S1024x16384 (![0, 1] : Fin 2 → Fin S1024x16384.rank)
  bcast_S_S1024x16384 : S_.BroadcastsInDim S1024x16384 (![] : Fin 0 → Fin S1024x16384.rank)
  reducesTo_S16384x512_S16384_d1 : S16384x512.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  transposes_S16384x512_S512x16384_1_0 : S16384x512.Transposes [1, 0] S512x16384
  reducesTo_S1024x16384_S16384_d0 : S1024x16384.ReducesTo [0] S16384
  reducesTo_S16384_S_d0 : S16384.ReducesTo [0] S_
  bcast_S16384_S1x16384_1 : S16384.BroadcastsInDim S1x16384 (![1] : Fin 1 → Fin S1x16384.rank)
  dot_S1024x512_S512x16384_S1024x16384_1_0_0_1_n_n_wf : DotDims.WF S1024x512 S512x16384 S1024x16384 [1] [0] [0] [1] [] []

variable [Facts₀]

def dot_S1024x512_S512x16384_S1024x16384_1_0_0_1_n_n : DotDims S1024x512 S512x16384 S1024x16384 where
  lhsContracting := [1]
  rhsContracting := [0]
  lhsNonContracting := [0]
  rhsNonContracting := [1]
  lhsBatch := []
  rhsBatch := []
  wf := dot_S1024x512_S512x16384_S1024x16384_1_0_0_1_n_n_wf

class Facts : Prop extends Facts₀ where

variable [Facts]
-- ==== Proof.Finite.lean ====
/- Under the precondition every sample coordinate and every proxy coordinate is a real number. -/
import proofs.«108357_j10222022165009_2_alg».proof.Defs
import Idealize.ShloMosaic.Lib.ReduceAll
import Idealize.ShloMosaic.Lib.ValueIdx

noncomputable section

namespace Cert.Finite

open Idealize.ShloMosaic Idealize.ShloMosaic.TcCoe Idealize.SL.Sem

/-- A rank-0 shape has one index. -/
private instance : Subsingleton Cert.Pre_finite_inputs.S_.Idx := ⟨fun a b => funext fun d => d.elim0⟩

/-- The pattern `0x7F800000` (all-ones exponent, zero significand, sign 0) denotes `+∞`. -/
private theorem inf_eq : Ideal.ofBits .f32 0x7F800000#32 = ⊤ := by
  simp [Ideal.ofBits, Ideal.ieee]

/-- `|x| < +∞` over the extended reals says `x` is a real: at `±∞` the absolute value `max x (-x)` is `+∞`. -/
private theorem real_of_abs_lt (x : EReal)
    (e : Ideal.cmp .olt (max x (-x)) (Ideal.ofBits .f32 0x7F800000#32) = 1#1) : ∃ r : ℝ, x = (r : EReal) := by
  rw [inf_eq] at e
  induction x using EReal.rec with
  | bot => simp [Ideal.cmp] at e
  | coe r => exact ⟨r, rfl⟩
  | top => simp [Ideal.cmp] at e

theorem finite_arg0 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) := by
  intro i
  have e := congrFun (h c) ValueIdx.ix0
  unfold Cert.Pre_finite_inputs.fn Cert.Pre_finite_inputs.fn_part1 at e
  dsimp only at e
  simp only [andi, IntOp.andi_eq_one] at e
  obtain ⟨⟨⟨h0, h2⟩, h3⟩, h4⟩ := e
  exact real_of_abs_lt _ (Host.reduce_andi_all _ _ _ _ _ h0 i)

theorem finite_arg2 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg2) i = (r : EReal) := by
  intro i
  have e := congrFun (h c) ValueIdx.ix0
  unfold Cert.Pre_finite_inputs.fn Cert.Pre_finite_inputs.fn_part1 at e
  dsimp only at e
  simp only [andi, IntOp.andi_eq_one] at e
  obtain ⟨⟨⟨h0, h2⟩, h3⟩, h4⟩ := e
  exact real_of_abs_lt _ (Host.reduce_andi_all _ _ _ _ _ h2 i)

end Cert.Finite

end
-- ==== Proof.Spec.lean ====
/- The loss both programs compute, as ONE function of the argument arrays, on the extended reals.

   For class `c` and sample `b` write `h b c` for the one-hot entry (1 when sample `b`'s target is `c`, else 0) and
   `cs b c = (∑ k, x b k · p c k) · (∑ k, p c k² + ε)^(-1/2)` for the cosine of sample `b` against proxy `c`. Per class:
   the outlier threshold `l - ((1 + 1·(1 - l)) · 1/(1 + log1p e) + 0.1)`, the negative weight `1/max(1, e)` below the threshold and `1`
   otherwise, and from one column of `h` and of `cs` four numbers — whether the class is present, the mean negative weight,
   `log1p` of the positives' exponential sum and `log1p` of the negatives'. The loss is the sum of the third over the sum of the first
   plus the sum of the fourth over the sum of the second. The float literals stay the bit patterns the programs spell. -/
import Idealize.ShloMosaic.PureOps.Ideal
import Idealize.ShloMosaic.Lib.ValueIdx

noncomputable section

namespace Cert.Spec

open Idealize.ShloMosaic Idealize.ShloMosaic.ValueIdx

/-- The literals: 1, 0, the margin 0.1, the scale 32, the batch size 1024, and the ε under the norm's root. -/
abbrev f1 : EReal := Ideal.ofBits .f32 0x3F800000#32
abbrev f0 : EReal := Ideal.ofBits .f32 0x00000000#32
abbrev fMrg : EReal := Ideal.ofBits .f32 0x3DCCCCCD#32
abbrev fAlpha : EReal := Ideal.ofBits .f32 0x42000000#32
abbrev fB : EReal := Ideal.ofBits .f32 0x44800000#32
abbrev fEps : EReal := Ideal.ofBits .f32 0x2B8CBCCC#32

/-- A one-bit truth value as the number 1 or 0. -/
def ind (b : BitVec 1) : EReal := if b = 1#1 then 1 else 0

/-- The one-hot entry: target `tg` against class number `c`. -/
def hot (tg : BitVec 32) (c : ℕ) : EReal := if tg = BitVec.ofNat 32 c then 1 else 0

/-- The outlier threshold of a class with effective number `e` and learned similarity `l`. -/
def outlier (e l : EReal) : EReal := l - ((f1 + f1 * (f1 - l)) * Ideal.div f1 (f1 + Ideal.log1p e) + fMrg)

/-- The weight of a negative below the threshold. -/
def invEff (e : EReal) : EReal := Ideal.div f1 (max f1 e)

/-- The weight of a negative with cosine `cs`. -/
def negVal (cs e l : EReal) : EReal := Scalar.select (Ideal.cmp .olt cs (outlier e l)) (invEff e) f1

/-- Is the class present: does its one-hot column `h` sum above zero. -/
def present (h : Fin 1024 → EReal) : EReal := ind (Ideal.cmp .ogt (∑ b, h b) f0)

/-- The mean weight of the class's negatives (zero when it has none). -/
def negW (h cs : Fin 1024 → EReal) (e l : EReal) : EReal :=
  Scalar.select (Ideal.cmp .ogt (fB - ∑ b, h b) f0)
    (Ideal.div (∑ b, (f1 - h b) * negVal (cs b) e l) (max (fB - ∑ b, h b) f1)) f0

/-- `log1p` of the positives' exponential sum. -/
def posL (h cs : Fin 1024 → EReal) : EReal := Ideal.log1p (∑ b, h b * Ideal.exp (fAlpha * (fMrg - cs b)))

/-- `log1p` of the negatives' weighted exponential sum. -/
def negL (h cs : Fin 1024 → EReal) (e l : EReal) : EReal :=
  Ideal.log1p (∑ b, (f1 - h b) * Ideal.exp (fAlpha * (cs b + fMrg) * negVal (cs b) e l))

/-- The cosine of sample `b` against proxy `c`: the inner product scaled by the proxy's inverse norm. -/
def cosK (x : (⟨2, ![1024, 512]⟩ : Shape).Idx → EReal) (p : (⟨2, ![16384, 512]⟩ : Shape).Idx → EReal) (c : Fin 16384) (b : Fin 1024) : EReal :=
  (∑ k : Fin 512, x (ix2 b k) * p (ix2 c k)) * Ideal.rsqrt ((∑ k : Fin 512, p (ix2 c k) * p (ix2 c k)) + fEps)

/-- Class `c`'s one-hot column. -/
def hcol (tg : (⟨1, ![1024]⟩ : Shape).Idx → BitVec 32) (c : Fin 16384) : Fin 1024 → EReal := fun b => hot (tg (ix1 b)) c.val

/-- The four per-class numbers, from the argument arrays. -/
def clsPresent (tg : (⟨1, ![1024]⟩ : Shape).Idx → BitVec 32) (c : Fin 16384) : EReal := present (hcol tg c)
def clsNegW (x : (⟨2, ![1024, 512]⟩ : Shape).Idx → EReal) (tg : (⟨1, ![1024]⟩ : Shape).Idx → BitVec 32) (p : (⟨2, ![16384, 512]⟩ : Shape).Idx → EReal)
    (en ls : (⟨1, ![16384]⟩ : Shape).Idx → EReal) (c : Fin 16384) : EReal := negW (hcol tg c) (cosK x p c) (en (ix1 c)) (ls (ix1 c))
def clsPosL (x : (⟨2, ![1024, 512]⟩ : Shape).Idx → EReal) (tg : (⟨1, ![1024]⟩ : Shape).Idx → BitVec 32) (p : (⟨2, ![16384, 512]⟩ : Shape).Idx → EReal)
    (c : Fin 16384) : EReal := posL (hcol tg c) (cosK x p c)
def clsNegL (x : (⟨2, ![1024, 512]⟩ : Shape).Idx → EReal) (tg : (⟨1, ![1024]⟩ : Shape).Idx → BitVec 32) (p : (⟨2, ![16384, 512]⟩ : Shape).Idx → EReal)
    (en ls : (⟨1, ![16384]⟩ : Shape).Idx → EReal) (c : Fin 16384) : EReal := negL (hcol tg c) (cosK x p c) (en (ix1 c)) (ls (ix1 c))

/-- The loss. -/
def loss (x : (⟨2, ![1024, 512]⟩ : Shape).Idx → EReal) (tg : (⟨1, ![1024]⟩ : Shape).Idx → BitVec 32) (p : (⟨2, ![16384, 512]⟩ : Shape).Idx → EReal)
    (en ls : (⟨1, ![16384]⟩ : Shape).Idx → EReal) : EReal :=
  Ideal.div (∑ c : Fin 16384, clsPosL x tg p c) (∑ c : Fin 16384, clsPresent tg c)
    + Ideal.div (∑ c : Fin 16384, clsNegL x tg p en ls c) (∑ c : Fin 16384, clsNegW x tg p en ls c)

end Cert.Spec

end
-- ==== Proof.Algebra.lean ====
/- The laws of the extended reals that join the two programs' arrangements of the loss. -/
import proofs.«108357_j10222022165009_2_alg».proof.Proof.Spec

noncomputable section

namespace Cert.Algebra

open Idealize.ShloMosaic Cert.Spec

/-- The patterns read as extended reals: sign, exponent and significand fields unfolded, then arithmetic. -/
theorem f1_eq : f1 = 1 := by
  simp [Ideal.ofBits, Ideal.ieee, -EReal.coe_mul]; norm_num
theorem f0_eq : f0 = 0 := by
  simp [Ideal.ofBits, Ideal.ieee]
theorem fB_eq : fB = ((1024 : ℝ) : EReal) := by
  simp [Ideal.ofBits, Ideal.ieee, -EReal.coe_mul]; norm_num
/-- `0x2B8CBCCC` has sign bit 0, exponent field 87 and a nonzero significand: a positive normal real. -/
theorem fEps_pos : ∃ r : ℝ, 0 < r ∧ fEps = (r : EReal) := by
  simp [Ideal.ofBits, Ideal.ieee, -EReal.coe_mul]

/-- A one-hot entry is 0 or 1. -/
theorem hot_cases (tg : BitVec 32) (c : ℕ) : hot tg c = 0 ∨ hot tg c = 1 := by
  unfold hot; split <;> simp

/-- A finite sum of reals, taken in the extended reals, is the real sum. -/
private theorem coe_sum {ι : Type*} (s : Finset ι) (g : ι → ℝ) :
    ∑ i ∈ s, ((g i : ℝ) : EReal) = ((∑ i ∈ s, g i : ℝ) : EReal) := by
  induction s using Finset.cons_induction with
  | empty => simp
  | cons a s ha ih => rw [Finset.sum_cons, Finset.sum_cons, ih, EReal.coe_add]

/-- Counting the negatives: with every `h b` real, `∑ (1 - h b) = 1024 - ∑ h b`, the sum of the constant being the cardinality. -/
theorem ncnt_law (h : Fin 1024 → EReal) (hh : ∀ b, h b = 0 ∨ h b = 1) : f0 + ∑ b, (f1 - h b) = fB - ∑ b, h b := by
  have hr : ∀ b, ∃ r : ℝ, h b = (r : EReal) := fun b =>
    (hh b).elim (fun e => ⟨0, by simp [e]⟩) (fun e => ⟨1, by simp [e]⟩)
  choose g hg using hr
  obtain rfl : h = fun b => ((g b : ℝ) : EReal) := funext hg
  have e1 : ∀ b, f1 - ((g b : ℝ) : EReal) = ((1 - g b : ℝ) : EReal) := fun b => by
    rw [f1_eq, EReal.coe_sub, EReal.coe_one]
  simp only [e1, coe_sum, f0_eq, fB_eq, zero_add, ← EReal.coe_sub]
  congr 1
  rw [Finset.sum_sub_distrib]
  simp

private theorem one_sub_one : (1 : EReal) - 1 = 0 := by
  rw [← EReal.coe_one, ← EReal.coe_sub, sub_self, EReal.coe_zero]

/-- Under the positives' mask: at `h = 0` both sides are `0`; at `h = 1` the comparison `1 - 1 > 0` fails and the factor is `1`. -/
theorem mask_pos (h M nv : EReal) (hh : h = 0 ∨ h = 1) :
    h * Ideal.exp (M * Scalar.select (Ideal.cmp .ogt (f1 - h) f0) nv f1) = h * Ideal.exp M := by
  rcases hh with rfl | rfl
  · simp
  · rw [f1_eq, f0_eq, one_sub_one]
    simp [Ideal.cmp, Scalar.select]

/-- Under the negatives' mask: at `h = 0` the comparison `1 > 0` holds and the factor is `nv`; at `h = 1` both sides are `0`. -/
theorem mask_neg (h M nv : EReal) (hh : h = 0 ∨ h = 1) :
    (f1 - h) * Ideal.exp (M * Scalar.select (Ideal.cmp .ogt (f1 - h) f0) nv f1) = (f1 - h) * Ideal.exp (M * nv) := by
  rcases hh with rfl | rfl
  · rw [f1_eq, f0_eq]
    simp [Ideal.cmp, Scalar.select]
  · rw [f1_eq, one_sub_one]
    simp

/-- With real entries, `s = ∑ p² + ε` is a positive real, so `√s` is a nonzero real, division by it is multiplication by
    `1/√s`, the inverse root is `(√s)⁻¹`, and the common factor comes out of the real sum. -/
theorem cos_law (x p : Fin 512 → EReal) (hx : ∀ k, ∃ r : ℝ, x k = (r : EReal)) (hp : ∀ k, ∃ r : ℝ, p k = (r : EReal)) :
    ∑ k, x k * Ideal.div (p k) (Ideal.sqrt ((f0 + ∑ k, p k * p k) + fEps))
      = (∑ k, x k * p k) * Ideal.rsqrt ((∑ k, p k * p k) + fEps) := by
  choose xr hxr using hx
  choose pr hpr using hp
  obtain rfl : x = fun k => ((xr k : ℝ) : EReal) := funext hxr
  obtain rfl : p = fun k => ((pr k : ℝ) : EReal) := funext hpr
  obtain ⟨e, he, hE⟩ := fEps_pos
  have hS : 0 < (∑ k, pr k * pr k) + e :=
    add_pos_of_nonneg_of_pos (Finset.sum_nonneg fun k _ => mul_self_nonneg _) he
  have hsum : (∑ k, ((pr k : ℝ) : EReal) * ((pr k : ℝ) : EReal)) + fEps
      = (((∑ k, pr k * pr k) + e : ℝ) : EReal) := by
    simp only [← EReal.coe_mul, coe_sum, hE, ← EReal.coe_add]
  have hsq : 0 < Real.sqrt ((∑ k, pr k * pr k) + e) := Real.sqrt_pos.mpr hS
  rw [f0_eq, zero_add, hsum, Ideal.sqrt_coe, if_neg (not_lt.mpr hS.le), Ideal.rsqrt_coe,
    if_neg (not_lt.mpr hS.le), if_neg hS.ne']
  simp only [Ideal.div_coe hsq.ne', ← EReal.coe_mul, coe_sum]
  congr 1
  rw [Finset.sum_mul]
  refine Finset.sum_congr rfl fun k _ => ?_
  rw [one_div]; ring

/-- A sum over `a · b` consecutive numbers, cut into `a` blocks of `b`: `c = i · b + j`. -/
theorem sum_blocks {M : Type*} [AddCommMonoid M] (a b : ℕ) (f : ℕ → M) :
    ∑ c : Fin (a * b), f c.val = ∑ i : Fin a, ∑ j : Fin b, f (i.val * b + j.val) := by
  rw [← Equiv.sum_comp finProdFinEquiv, Fintype.sum_prod_type]
  refine Finset.sum_congr rfl fun i _ => Finset.sum_congr rfl fun j _ => ?_
  congr 1
  simp [finProdFinEquiv, Nat.mul_comm, Nat.add_comm]

end Cert.Algebra

end
-- ==== Proof.RefSide.lean ====
/- The reference program's result, read one operation at a time, is the loss of Spec.lean: where the reference counts a class's
   negatives as the sum of `1 - h` the specification writes `1024 - ∑ h`; where the reference multiplies the exponent by a mask that is
   `1` at the positives and the negative weight elsewhere, the factor `h` or `1 - h` in front makes the mask's other branch irrelevant;
   and where the reference divides each proxy coordinate by the norm before the inner product, the specification scales the inner
   product by the inverse norm, equal for finite samples and proxies. -/
import proofs.«108357_j10222022165009_2_alg».proof.Proof.RefRead
import proofs.«108357_j10222022165009_2_alg».proof.Proof.Spec
import proofs.«108357_j10222022165009_2_alg».proof.Proof.Algebra

noncomputable section

namespace Cert.ReferenceIdeal.RefSide

open Idealize.ShloMosaic Idealize.ShloMosaic.ValueIdx Cert.ReferenceIdeal Cert.ReferenceIdeal.ReadP

/-- A one-bit word read as an unsigned number is the indicator of the bit. -/
private theorem uitofp_bit (w : BitVec 1) : FloatOps.uitofp (F := Ideal) .f32 w = Spec.ind w := by
  rcases BitVec.eq_zero_or_eq_one w with h | h <;> subst h
  · show (((0#1).toNat : ℝ) : EReal) = _
    simp [Spec.ind]
  · show (((1#1).toNat : ℝ) : EReal) = _
    simp [Spec.ind]

/-- The one-hot array at sample `b`, class `c`. -/
private theorem v0_at (x1 : (⟨S1024, .i32⟩ : BufTy).Contents (Elt Ideal)) (b : Fin 1024) (c : Fin 16384) :
    val_main_v0 (F := Ideal) x1 (ix2 b c) = Spec.hot (x1 (ix1 b)) c.val := by
  rw [val_main_v0_apply, val_main_call0_v4_apply, val_main_call0_v2_apply, val_main_call0_v0_apply,
    val_main_call0_v3_apply, val_main_call0_v1_apply, uitofp_bit]
  have e : idx_main_call0_v0 (idx_main_call0_v2 (ix2 b c)) = ix1 b :=
    funext fun a => Fin.ext (by match a with | ⟨0, _⟩ => rfl)
  rw [e]
  show Spec.ind (IntOp.cmpi .eq (x1 (ix1 b)) (BitVec.ofNat 32 c.val)) = _
  unfold Spec.ind Spec.hot
  by_cases h : x1 (ix1 b) = BitVec.ofNat 32 c.val
  · rw [if_pos h, if_pos (IntOp.cmpi_eq.mpr h)]
  · rw [if_neg h, if_neg (fun h' => h (IntOp.cmpi_eq.mp h'))]

/-- The complement of the one-hot array. -/
private theorem v2_at (x1 : (⟨S1024, .i32⟩ : BufTy).Contents (Elt Ideal)) (b : Fin 1024) (c : Fin 16384) :
    val_main_v2 (F := Ideal) x1 (ix2 b c) = Spec.f1 - Spec.hot (x1 (ix1 b)) c.val := by
  rw [val_main_v2_apply, val_main_v1_apply, val_main_cst_apply, v0_at]
  rfl

/-- The proxy's norm: the root of its squared sum plus ε. -/
private theorem v7_at (x2 : (⟨S16384x512, .f32⟩ : BufTy).Contents (Elt Ideal)) (c : Fin 16384) :
    val_main_v7 (F := Ideal) x2 (ix1 c)
      = Ideal.sqrt ((Spec.f0 + ∑ k : Fin 512, x2 (ix2 c k) * x2 (ix2 c k)) + Spec.fEps) := by
  rw [val_main_v7_apply, val_main_v6_apply, val_main_v4_apply, val_main_v5_apply, val_main_cst_1_apply,
    val_main_cst_0_apply]
  have e : ∀ k : Fin 512, idx_main_v4 (ix1 c) k = ix2 c k := fun k =>
    funext fun a => Fin.ext (by match a with | ⟨0, _⟩ => rfl | ⟨1, _⟩ => rfl)
  simp only [val_main_v3_apply, e]
  rfl

/-- The cosine array: each proxy coordinate divided by the norm, then the inner product — the inner product scaled by
    the inverse norm, as the samples and proxies are finite. -/
private theorem v12_at (x0 : (⟨S1024x512, .f32⟩ : BufTy).Contents (Elt Ideal))
    (x2 : (⟨S16384x512, .f32⟩ : BufTy).Contents (Elt Ideal))
    (hx : ∀ i, ∃ r : ℝ, x0 i = (r : EReal)) (hp : ∀ i, ∃ r : ℝ, x2 i = (r : EReal)) (b : Fin 1024) (c : Fin 16384) :
    val_main_v12 (F := Ideal) x0 x2 (ix2 b c) = Spec.cosK x0 x2 c b := by
  rw [val_main_v12_apply]
  have e : ∀ k : Fin 512, x0 (lidx_main_v12 (ix2 b c) k) * val_main_v11 (F := Ideal) x2 (ridx_main_v12 (ix2 b c) k)
      = x0 (ix2 b k) * Ideal.div (x2 (ix2 c k))
          (Ideal.sqrt ((Spec.f0 + ∑ k : Fin 512, x2 (ix2 c k) * x2 (ix2 c k)) + Spec.fEps)) := by
    intro k
    rw [val_main_v11_apply, val_main_v10_apply, val_main_v9_apply, val_main_v8_apply]
    have e1 : lidx_main_v12 (ix2 b c) k = ix2 b k :=
      funext fun a => Fin.ext (by match a with | ⟨0, _⟩ => rfl | ⟨1, _⟩ => rfl)
    have e2 : idx_main_v11 (ridx_main_v12 (ix2 b c) k) = ix2 c k :=
      funext fun a => Fin.ext (by match a with | ⟨0, _⟩ => rfl | ⟨1, _⟩ => rfl)
    have e3 : idx_main_v8 (idx_main_v9 (ix2 c k)) = ix1 c :=
      funext fun a => Fin.ext (by match a with | ⟨0, _⟩ => rfl)
    rw [e1, e2, e3, v7_at]
    rfl
  rw [Finset.sum_congr rfl (fun k _ => e k)]
  unfold Spec.cosK
  exact Cert.Algebra.cos_law (fun k => x0 (ix2 b k)) (fun k => x2 (ix2 c k)) (fun k => hx _) (fun k => hp _)

/-- The outlier threshold of class `c`. -/
private theorem v31_at (x3 x4 : (⟨S16384, .f32⟩ : BufTy).Contents (Elt Ideal)) (c : Fin 16384) :
    val_main_v31 (F := Ideal) x3 x4 (ix1 c) = Spec.outlier (x3 (ix1 c)) (x4 (ix1 c)) := by
  simp only [val_main_v31_apply, val_main_v30_apply, val_main_v28_apply, val_main_v29_apply, val_main_cst_9_apply,
    val_main_v27_apply, val_main_v26_apply, val_main_cst_8_apply, val_main_v25_apply, val_main_v24_apply,
    val_main_cst_7_apply, val_main_v23_apply, val_main_v22_apply, val_main_cst_6_apply, val_main_v21_apply,
    val_main_v20_apply, val_main_cst_5_apply, val_main_v19_apply, val_main_v18_apply, val_main_cst_4_apply,
    val_main_v17_apply]
  rfl

/-- The negative weight at sample `b`, class `c`. -/
private theorem v41_at (x0 : (⟨S1024x512, .f32⟩ : BufTy).Contents (Elt Ideal))
    (x2 : (⟨S16384x512, .f32⟩ : BufTy).Contents (Elt Ideal)) (x3 x4 : (⟨S16384, .f32⟩ : BufTy).Contents (Elt Ideal))
    (hx : ∀ i, ∃ r : ℝ, x0 i = (r : EReal)) (hp : ∀ i, ∃ r : ℝ, x2 i = (r : EReal)) (b : Fin 1024) (c : Fin 16384) :
    val_main_v41 (F := Ideal) x0 x2 x3 x4 (ix2 b c)
      = Spec.negVal (Spec.cosK x0 x2 c b) (x3 (ix1 c)) (x4 (ix1 c)) := by
  have e1 : idx_main_v33 (idx_main_v34 (ix2 b c)) = ix1 c :=
    funext fun a => Fin.ext (by match a with | ⟨0, _⟩ => rfl)
  have e2 : idx_main_v40 (idx_main_call1_v1 (ix2 b c)) = ix1 c :=
    funext fun a => Fin.ext (by match a with | ⟨0, _⟩ => rfl)
  rw [val_main_v41_apply, val_main_v35_apply, v12_at x0 x2 hx hp, val_main_v34_apply, val_main_v33_apply, e1, v31_at,
    val_main_call1_v1_apply, val_main_v40_apply, e2, val_main_v39_apply, val_main_v38_apply, val_main_cst_12_apply,
    val_main_v37_apply, val_main_v36_apply, val_main_cst_11_apply, val_main_call1_v2_apply, val_main_call1_v0_apply,
    val_main_cst_13_apply]
  rfl

/-- Class `c`'s one-hot column sums from the initial value zero. -/
private theorem v13_at (x1 : (⟨S1024, .i32⟩ : BufTy).Contents (Elt Ideal)) (c : Fin 16384) :
    val_main_v13 (F := Ideal) x1 (ix1 c) = ∑ b : Fin 1024, Spec.hcol x1 c b := by
  rw [val_main_v13_apply, val_main_cst_2_apply]
  have e : ∀ k : Fin 1024, idx_main_v13 (ix1 c) k = ix2 k c := fun k =>
    funext fun a => Fin.ext (by match a with | ⟨0, _⟩ => rfl | ⟨1, _⟩ => rfl)
  simp only [e, v0_at]
  show Spec.f0 + ∑ b : Fin 1024, Spec.hcol x1 c b = _
  rw [Cert.Algebra.f0_eq, zero_add]

/-- Is class `c` present. -/
private theorem v16_at (x1 : (⟨S1024, .i32⟩ : BufTy).Contents (Elt Ideal)) (c : Fin 16384) :
    val_main_v16 (F := Ideal) x1 (ix1 c) = Spec.clsPresent x1 c := by
  rw [val_main_v16_apply, val_main_v15_apply, v13_at, val_main_v14_apply, val_main_cst_3_apply, uitofp_bit]
  rfl

/-- Class `c`'s count of negatives: the sum of `1 - h` is `1024 - ∑ h`. -/
private theorem v42_at (x1 : (⟨S1024, .i32⟩ : BufTy).Contents (Elt Ideal)) (c : Fin 16384) :
    val_main_v42 (F := Ideal) x1 (ix1 c) = Spec.fB - ∑ b : Fin 1024, Spec.hcol x1 c b := by
  rw [val_main_v42_apply, val_main_cst_14_apply]
  have e : ∀ k : Fin 1024, idx_main_v42 (ix1 c) k = ix2 k c := fun k =>
    funext fun a => Fin.ext (by match a with | ⟨0, _⟩ => rfl | ⟨1, _⟩ => rfl)
  simp only [e, v2_at]
  exact Cert.Algebra.ncnt_law (Spec.hcol x1 c) (fun b => Cert.Algebra.hot_cases _ _)

/-- Class `c`'s mean negative weight. -/
private theorem v50_at (x0 : (⟨S1024x512, .f32⟩ : BufTy).Contents (Elt Ideal)) (x1 : (⟨S1024, .i32⟩ : BufTy).Contents (Elt Ideal))
    (x2 : (⟨S16384x512, .f32⟩ : BufTy).Contents (Elt Ideal)) (x3 x4 : (⟨S16384, .f32⟩ : BufTy).Contents (Elt Ideal))
    (hx : ∀ i, ∃ r : ℝ, x0 i = (r : EReal)) (hp : ∀ i, ∃ r : ℝ, x2 i = (r : EReal)) (c : Fin 16384) :
    val_main_v50 (F := Ideal) x0 x1 x2 x3 x4 (ix1 c) = Spec.clsNegW x0 x1 x2 x3 x4 c := by
  have e : ∀ k : Fin 1024, idx_main_v44 (ix1 c) k = ix2 k c := fun k =>
    funext fun a => Fin.ext (by match a with | ⟨0, _⟩ => rfl | ⟨1, _⟩ => rfl)
  have h44 : val_main_v44 (F := Ideal) x0 x1 x2 x3 x4 (ix1 c)
      = ∑ b : Fin 1024, (Spec.f1 - Spec.hcol x1 c b)
          * Spec.negVal (Spec.cosK x0 x2 c b) (x3 (ix1 c)) (x4 (ix1 c)) := by
    rw [val_main_v44_apply, val_main_cst_15_apply]
    simp only [e, val_main_v43_apply, v2_at, v41_at x0 x2 x3 x4 hx hp]
    show Spec.f0 + _ = _
    rw [Cert.Algebra.f0_eq, zero_add]
    rfl
  rw [val_main_v50_apply, val_main_v49_apply, val_main_v47_apply, h44, val_main_v46_apply, v42_at, val_main_v45_apply,
    val_main_cst_16_apply, val_main_v48_apply, val_main_cst_17_apply, val_main_call2_v1_apply,
    val_main_call2_v0_apply, val_main_cst_18_apply]
  rfl

/-- The exponent's mask at sample `b`, class `c`: the negative weight where `1 - h` is positive, else `1`. -/
private theorem v54_at (x0 : (⟨S1024x512, .f32⟩ : BufTy).Contents (Elt Ideal)) (x1 : (⟨S1024, .i32⟩ : BufTy).Contents (Elt Ideal))
    (x2 : (⟨S16384x512, .f32⟩ : BufTy).Contents (Elt Ideal)) (x3 x4 : (⟨S16384, .f32⟩ : BufTy).Contents (Elt Ideal))
    (hx : ∀ i, ∃ r : ℝ, x0 i = (r : EReal)) (hp : ∀ i, ∃ r : ℝ, x2 i = (r : EReal)) (b : Fin 1024) (c : Fin 16384) :
    val_main_v54 (F := Ideal) x0 x1 x2 x3 x4 (ix2 b c)
      = Scalar.select (Ideal.cmp .ogt (Spec.f1 - Spec.hcol x1 c b) Spec.f0)
          (Spec.negVal (Spec.cosK x0 x2 c b) (x3 (ix1 c)) (x4 (ix1 c))) Spec.f1 := by
  rw [val_main_v54_apply, val_main_v53_apply, v2_at, v41_at x0 x2 x3 x4 hx hp, val_main_v52_apply, val_main_cst_20_apply,
    val_main_call3_v1_apply, val_main_call3_v0_apply, val_main_cst_21_apply]
  rfl

/-- Class `c`'s positive term: under the factor `h` the mask is `1`. -/
private theorem v63_at (x0 : (⟨S1024x512, .f32⟩ : BufTy).Contents (Elt Ideal)) (x1 : (⟨S1024, .i32⟩ : BufTy).Contents (Elt Ideal))
    (x2 : (⟨S16384x512, .f32⟩ : BufTy).Contents (Elt Ideal)) (x3 x4 : (⟨S16384, .f32⟩ : BufTy).Contents (Elt Ideal))
    (hx : ∀ i, ∃ r : ℝ, x0 i = (r : EReal)) (hp : ∀ i, ∃ r : ℝ, x2 i = (r : EReal)) (c : Fin 16384) :
    val_main_v63 (F := Ideal) x0 x1 x2 x3 x4 (ix1 c) = Spec.clsPosL x0 x1 x2 c := by
  have e : ∀ k : Fin 1024, idx_main_v62 (ix1 c) k = ix2 k c := fun k =>
    funext fun a => Fin.ext (by match a with | ⟨0, _⟩ => rfl | ⟨1, _⟩ => rfl)
  have h61 : ∀ b : Fin 1024, val_main_v61 (F := Ideal) x0 x1 x2 x3 x4 (ix2 b c)
      = Spec.hcol x1 c b * Ideal.exp (Spec.fAlpha * (Spec.fMrg - Spec.cosK x0 x2 c b)) := by
    intro b
    rw [val_main_v61_apply, v0_at, val_main_v60_apply, val_main_v59_apply, v54_at x0 x1 x2 x3 x4 hx hp,
      val_main_v58_apply, val_main_v57_apply, val_main_cst_23_apply, val_main_v56_apply, val_main_v55_apply,
      val_main_cst_22_apply, v12_at x0 x2 hx hp]
    exact Cert.Algebra.mask_pos (Spec.hcol x1 c b) (Spec.fAlpha * (Spec.fMrg - Spec.cosK x0 x2 c b)) _
      (Cert.Algebra.hot_cases _ _)
  rw [val_main_v63_apply, val_main_v62_apply, val_main_cst_24_apply]
  simp only [e, h61]
  show Ideal.log1p (Spec.f0 + _) = _
  rw [Cert.Algebra.f0_eq, zero_add]
  rfl

/-- Class `c`'s negative term: under the factor `1 - h` the mask is the negative weight. -/
private theorem v73_at (x0 : (⟨S1024x512, .f32⟩ : BufTy).Contents (Elt Ideal)) (x1 : (⟨S1024, .i32⟩ : BufTy).Contents (Elt Ideal))
    (x2 : (⟨S16384x512, .f32⟩ : BufTy).Contents (Elt Ideal)) (x3 x4 : (⟨S16384, .f32⟩ : BufTy).Contents (Elt Ideal))
    (hx : ∀ i, ∃ r : ℝ, x0 i = (r : EReal)) (hp : ∀ i, ∃ r : ℝ, x2 i = (r : EReal)) (c : Fin 16384) :
    val_main_v73 (F := Ideal) x0 x1 x2 x3 x4 (ix1 c) = Spec.clsNegL x0 x1 x2 x3 x4 c := by
  have e : ∀ k : Fin 1024, idx_main_v72 (ix1 c) k = ix2 k c := fun k =>
    funext fun a => Fin.ext (by match a with | ⟨0, _⟩ => rfl | ⟨1, _⟩ => rfl)
  have h71 : ∀ b : Fin 1024, val_main_v71 (F := Ideal) x0 x1 x2 x3 x4 (ix2 b c)
      = (Spec.f1 - Spec.hcol x1 c b) * Ideal.exp (Spec.fAlpha * (Spec.cosK x0 x2 c b + Spec.fMrg)
          * Spec.negVal (Spec.cosK x0 x2 c b) (x3 (ix1 c)) (x4 (ix1 c))) := by
    intro b
    rw [val_main_v71_apply, v2_at, val_main_v70_apply, val_main_v69_apply, v54_at x0 x1 x2 x3 x4 hx hp,
      val_main_v68_apply, val_main_v67_apply, val_main_cst_27_apply, val_main_v66_apply, val_main_v65_apply,
      val_main_cst_26_apply, v12_at x0 x2 hx hp]
    exact Cert.Algebra.mask_neg (Spec.hcol x1 c b) (Spec.fAlpha * (Spec.cosK x0 x2 c b + Spec.fMrg)) _
      (Cert.Algebra.hot_cases _ _)
  rw [val_main_v73_apply, val_main_v72_apply, val_main_cst_28_apply]
  simp only [e, h71]
  show Ideal.log1p (Spec.f0 + _) = _
  rw [Cert.Algebra.f0_eq, zero_add]
  rfl

/-- A rank-1 index set is its coordinate's range, so a sum over it is the sum over the coordinate. -/
private def idxEquiv1 {n : Nat} : (⟨1, ![n]⟩ : Shape).Idx ≃ Fin n where
  toFun i := i 0
  invFun a := ix1 a
  left_inv i := (eq_ix1 i).symm
  right_inv _ := rfl

private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem ref_value (x0 : (⟨S1024x512, .f32⟩ : BufTy).Contents (Elt Ideal)) (x1 : (⟨S1024, .i32⟩ : BufTy).Contents (Elt Ideal))
    (x2 : (⟨S16384x512, .f32⟩ : BufTy).Contents (Elt Ideal)) (x3 x4 : (⟨S16384, .f32⟩ : BufTy).Contents (Elt Ideal))
    (hx : ∀ i, ∃ r : ℝ, x0 i = (r : EReal)) (hp : ∀ i, ∃ r : ℝ, x2 i = (r : EReal)) :
    val_main_v77 (F := Ideal) x0 x1 x2 x3 x4 = fun _ => Spec.loss x0 x1 x2 x3 x4 := by
  funext i
  -- the four totals over the classes, each from the initial value zero
  have h32 : val_main_v32 (F := Ideal) x1 i = ∑ c : Fin 16384, Spec.clsPresent x1 c := by
    rw [val_main_v32_apply, val_main_cst_10_apply, sum_idx1]
    simp only [v16_at]
    show Spec.f0 + _ = _
    rw [Cert.Algebra.f0_eq, zero_add]
  have h51 : val_main_v51 (F := Ideal) x0 x1 x2 x3 x4 i = ∑ c : Fin 16384, Spec.clsNegW x0 x1 x2 x3 x4 c := by
    rw [val_main_v51_apply, val_main_cst_19_apply, sum_idx1]
    simp only [v50_at x0 x1 x2 x3 x4 hx hp]
    show Spec.f0 + _ = _
    rw [Cert.Algebra.f0_eq, zero_add]
  have h64 : val_main_v64 (F := Ideal) x0 x1 x2 x3 x4 i = ∑ c : Fin 16384, Spec.clsPosL x0 x1 x2 c := by
    rw [val_main_v64_apply, val_main_cst_25_apply, sum_idx1]
    simp only [v63_at x0 x1 x2 x3 x4 hx hp]
    show Spec.f0 + _ = _
    rw [Cert.Algebra.f0_eq, zero_add]
  have h74 : val_main_v74 (F := Ideal) x0 x1 x2 x3 x4 i = ∑ c : Fin 16384, Spec.clsNegL x0 x1 x2 x3 x4 c := by
    rw [val_main_v74_apply, val_main_cst_29_apply, sum_idx1]
    simp only [v73_at x0 x1 x2 x3 x4 hx hp]
    show Spec.f0 + _ = _
    rw [Cert.Algebra.f0_eq, zero_add]
  rw [val_main_v77_apply, val_main_v75_apply, val_main_v76_apply, h32, h51, h64, h74]
  rfl

end Cert.ReferenceIdeal.RefSide

end
-- ==== Proof.KTail.lean ====
/- The host operations after the kernel's region: the output array [4,16,128] is regrouped as [4,2,8,128] (plane, core, row, lane),
   entry (row 0, lane 0) of every (plane, core) is kept, the two cores' entries of each plane are added, and the loss is
   plane 2's total over plane 0's plus plane 3's total over plane 1's. -/
import proofs.«108357_j10222022165009_2_alg».proof.Proof.Gen.KernelIdeal.Frame
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.KTail

open Idealize.ShloMosaic Idealize.ShloMosaic.TcCoe Idealize.ShloMosaic.ValueIdx Idealize.SL.Sem Idealize.ShloMosaic.StableHlo
  Cert.KernelIdeal Cert.KernelIdeal.Gen

/-- Entry (row 0, lane 0) of every (plane, core) of the output array. -/
def corner (A : FVec Ideal S4x16x128 .f32) : FVec Ideal S4x2 .f32 :=
  fun i => shapeCast S4x2 (extractStridedSlice S4x2x1x1 ![0, 0, 0, 0]
    (fun i => shapeCast S4x2x8x128 A shapeCasts_S4x16x128_S4x2x8x128 i) slices_S4x2x8x128_S4x2x1x1_0_0_0_0) shapeCasts_S4x2x1x1_S4x2 i

/-- The two cores' entries added, per plane. -/
def tot (A : FVec Ideal S4x16x128 .f32) : FVec Ideal S4 .f32 :=
  Host.reduceAdd (F := Ideal) (corner A) (constant S_ .f32 0x00000000#32) reducesTo_S4x2_S4_d1 h_S_

/-- The result of the operations after the region, from the output array. -/
def tailFn (A : FVec Ideal S4x16x128 .f32) : FVec Ideal S_ .f32 :=
  addf (F := Ideal) (φ := .f32)
    (Host.divf (F := Ideal) (φ := .f32) (fun i => shapeCast S_ (extractStridedSlice S1 ![2] (tot A) slices_S4_S1_2) shapeCasts_S1_S_ i)
      (fun i => shapeCast S_ (extractStridedSlice S1 ![0] (tot A) slices_S4_S1_0) shapeCasts_S1_S_ i))
    (Host.divf (F := Ideal) (φ := .f32) (fun i => shapeCast S_ (extractStridedSlice S1 ![3] (tot A) slices_S4_S1_3) shapeCasts_S1_S_ i)
      (fun i => shapeCast S_ (extractStridedSlice S1 ![1] (tot A) slices_S4_S1_1) shapeCasts_S1_S_ i))

theorem corner_apply (A : FVec Ideal S4x16x128 .f32) (k : Fin 4) (g : Fin 2) :
    corner A (ix2 k g) = A (ix3 k (⟨g.val * 8, by have := g.isLt; omega⟩ : Fin 16) (0 : Fin 128)) := by
  unfold corner
  refine (shapeCast_apply _ shapeCasts_S4x2x1x1_S4x2 (ix2 k g) (ix4 k g (0 : Fin 1) (0 : Fin 1)) (by
    rw [Shape.rowMajor_val_four, Shape.rowMajor_val_two]
    show ((k.val * 2 + g.val) * 1 + 0) * 1 + 0 = k.val * 2 + g.val
    omega)).trans ?_
  refine (extractStridedSlice_apply _ _ slices_S4x2x8x128_S4x2x1x1_0_0_0_0 (ix4 k g (0 : Fin 1) (0 : Fin 1)) (ix4 k g (0 : Fin 8) (0 : Fin 128))
    (fun a => match a with
      | ⟨0, _⟩ => by show k.val = 0 + k.val; omega
      | ⟨1, _⟩ => by show g.val = 0 + g.val; omega
      | ⟨2, _⟩ => by show 0 = 0 + 0; omega
      | ⟨3, _⟩ => by show 0 = 0 + 0; omega)).trans ?_
  exact shapeCast_apply A shapeCasts_S4x16x128_S4x2x8x128 (ix4 k g (0 : Fin 8) (0 : Fin 128)) _ (by
    rw [Shape.rowMajor_val_three, Shape.rowMajor_val_four]
    show (k.val * 16 + g.val * 8) * 128 + 0 = ((k.val * 2 + g.val) * 8 + 0) * 128 + 0
    omega)

theorem tot_apply (A : FVec Ideal S4x16x128 .f32) (k : Fin 4) :
    tot A (ix1 k) = ∑ g : Fin 2, A (ix3 k (⟨g.val * 8, by have := g.isLt; omega⟩ : Fin 16) (0 : Fin 128)) := by
  unfold tot
  simp only [Host.reduceAdd, Ideal.hostReduceAdd_def]
  rw [Ideal.hostReduceAdd_single reducesTo_S4x2_S4_d1 (by decide)]
  show Ideal.ofBits .f32 0x00000000#32 + _ = _
  rw [Ideal.ofBits_zero_f32, zero_add]
  refine Finset.sum_congr rfl fun g _ => ?_
  rw [← corner_apply A k g]
  exact congrArg (corner A) (funext fun a => Fin.ext (by match a with | ⟨0, _⟩ => rfl | ⟨1, _⟩ => rfl))

theorem pick_apply (A : FVec Ideal S4x16x128 .f32) (k : Fin 4) (h : S4.Slices ![k.val] S1) (i : S_.Idx) :
    shapeCast S_ (extractStridedSlice S1 ![k.val] (tot A) h) shapeCasts_S1_S_ i = tot A (ix1 k) := by
  refine (shapeCast_apply _ shapeCasts_S1_S_ i (ix1 (0 : Fin 1)) (by
    rw [Shape.rowMajor_val_one]; exact (Fin.val_eq_zero _).symm ▸ rfl)).trans ?_
  exact extractStridedSlice_apply _ _ h (ix1 (0 : Fin 1)) (ix1 k) (fun a => match a with
    | ⟨0, _⟩ => by show k.val = k.val + 0; omega)

/-- The tail at its one index: plane 2's total over plane 0's plus plane 3's over plane 1's. -/
theorem tailFn_apply (A : FVec Ideal S4x16x128 .f32) (i : S_.Idx) :
    tailFn A i = Ideal.div (tot A (ix1 (2 : Fin 4))) (tot A (ix1 (0 : Fin 4))) + Ideal.div (tot A (ix1 (3 : Fin 4))) (tot A (ix1 (1 : Fin 4))) := by
  unfold tailFn
  show Ideal.div _ _ + Ideal.div _ _ = _
  exact congrArg₂ (· + ·)
    (congrArg₂ Ideal.div (pick_apply A (2 : Fin 4) slices_S4_S1_2 i) (pick_apply A (0 : Fin 4) slices_S4_S1_0 i))
    (congrArg₂ Ideal.div (pick_apply A (3 : Fin 4) slices_S4_S1_3 i) (pick_apply A (1 : Fin 4) slices_S4_S1_1 i))

variable (m : (ℓ : Loc nD τ sig) → Buf (Elt Ideal) ℓ) (c : Dev nD)

set_option maxHeartbeats 1000000 in
/-- What the run leaves in the result buffer: the tail of the output array after the region. -/
theorem tail_eq : (Pipeline.afterTail₀ cfgs (dats m) 0 (V0 m) [hostOps1] c main_v27 : S_.Idx → EReal)
    = tailFn ((dats m 0 c).arrAt 6 cfg0.N) := by
  have e : Pipeline.withArrays (cfgs 0).spec c (V0 m c) (fun w => (dats m 0 c).arrAt w (cfgs 0).N) (Proc.devRef .tc main_v12)
      = (dats m 0 c).arrAt 6 cfg0.N := Pipeline.withArrays_arr spec0 launch0.win.arr_inj c _ _ 6
  unfold Pipeline.afterTail₀
  generalize hW : Pipeline.withArrays (cfgs 0).spec c (V0 m c) (fun w => (dats m 0 c).arrAt w (cfgs 0).N) = W
  simp only [hostOps1, List.flatten_cons, List.flatten_nil, List.append_nil]
  after_results_simp
  subst hW
  rw [e]
  rfl

end Cert.KernelIdeal.KTail

end
-- ==== Proof.KPay.lean ====
/- What one grid point of the kernel adds to each of the four running sums, as a function of the point's input blocks. -/
import proofs.«108357_j10222022165009_2_alg».proof.Proof.Spec
import proofs.«108357_j10222022165009_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Idealize.ShloMosaic Idealize.ShloMosaic.ValueIdx Cert.KernelIdeal Cert.KernelIdeal.Gen

/-- The class number of column `q` of the block of 512 classes that grid point `i` works on. -/
def cls (i : grid0.Coords) (q : Fin 512) : ℕ := ((i 0).val * 16 + (i 1).val) * 512 + q.val

/-- Column `q`'s one-hot column, from the block of targets. -/
def hB (i : grid0.Coords) (x1 : Vec Ideal S1024x1 .i32) (q : Fin 512) : Fin 1024 → EReal :=
  fun b => Spec.hot (x1 (ix2 b (0 : Fin 1))) (cls i q)

/-- Column `q`'s cosines, from the samples, the block of proxies and the block of inverse norms. -/
def cB (x0 : Vec Ideal S1024x512 .bf16) (x2 : Vec Ideal S512x512 .bf16) (x3 : Vec Ideal S1x512 .f32) (q : Fin 512) : Fin 1024 → EReal :=
  fun b => (∑ k : Fin 512, x0 (ix2 b k) * x2 (ix2 q k)) * x3 (ix2 (0 : Fin 1) q)

/-- The point's four partial sums over its 512 classes. -/
def part0 (i : grid0.Coords) (x1 : Vec Ideal S1024x1 .i32) : EReal := ∑ q : Fin 512, Spec.present (hB i x1 q)
def part1 (i : grid0.Coords) (x0 : Vec Ideal S1024x512 .bf16) (x1 : Vec Ideal S1024x1 .i32) (x2 : Vec Ideal S512x512 .bf16)
    (x3 x4 x5 : Vec Ideal S1x512 .f32) : EReal :=
  ∑ q : Fin 512, Spec.negW (hB i x1 q) (cB x0 x2 x3 q) (x4 (ix2 (0 : Fin 1) q)) (x5 (ix2 (0 : Fin 1) q))
def part2 (i : grid0.Coords) (x0 : Vec Ideal S1024x512 .bf16) (x1 : Vec Ideal S1024x1 .i32) (x2 : Vec Ideal S512x512 .bf16)
    (x3 : Vec Ideal S1x512 .f32) : EReal :=
  ∑ q : Fin 512, Spec.posL (hB i x1 q) (cB x0 x2 x3 q)
def part3 (i : grid0.Coords) (x0 : Vec Ideal S1024x512 .bf16) (x1 : Vec Ideal S1024x1 .i32) (x2 : Vec Ideal S512x512 .bf16)
    (x3 x4 x5 : Vec Ideal S1x512 .f32) : EReal :=
  ∑ q : Fin 512, Spec.negL (hB i x1 q) (cB x0 x2 x3 q) (x4 (ix2 (0 : Fin 1) q)) (x5 (ix2 (0 : Fin 1) q))

/-- The kernel's contraction record: axis 1 of the samples against axis 1 of the proxies. -/
private abbrev DK := dot_S1024x512_S512x512_S1024x512_1_1_0_0_n_n

private theorem dk_lhs0 (j : S1024x512.Idx) (k : DK.contr.Idx) : (DK.lhsIdx j k 0).val = (j 0).val := by
  unfold DotDims.lhsIdx
  rw [dif_neg (show ¬(0 : Fin S1024x512.rank) ∈ DK.lhsBatch by decide), dif_pos (show (0 : Fin S1024x512.rank) ∈ DK.lhsNonContracting by decide)]
  rfl
private theorem dk_lhs1 (j : S1024x512.Idx) (k : DK.contr.Idx) : (DK.lhsIdx j k 1).val = (k ⟨0, by decide⟩).val :=
  DK.lhsIdx_val_of_single rfl j k
private theorem dk_rhs0 (j : S1024x512.Idx) (k : DK.contr.Idx) : (DK.rhsIdx j k 0).val = (j 1).val := by
  unfold DotDims.rhsIdx
  rw [dif_neg (show ¬(0 : Fin S512x512.rank) ∈ DK.rhsBatch by decide), dif_pos (show (0 : Fin S512x512.rank) ∈ DK.rhsNonContracting by decide)]
  rfl
private theorem dk_rhs1 (j : S1024x512.Idx) (k : DK.contr.Idx) : (DK.rhsIdx j k 1).val = (k ⟨0, by decide⟩).val :=
  DK.rhsIdx_val_of_single rfl j k

/-- The matmul into a zero accumulator, at sample `b` and column `q`: the inner product of row `b` of the samples with row `q` of the proxies. -/
private theorem matmul_at (x0 : FVec Ideal S1024x512 .bf16) (x2 : FVec Ideal S512x512 .bf16) (b : Fin 1024) (q : Fin 512) :
    matmul DK none x0 x2 (constant (F := Ideal) S1024x512 .f32 0x00000000#32) (ix2 b q) = ∑ k : Fin 512, x0 (ix2 b k) * x2 (ix2 q k) := by
  simp only [matmul]
  rw [Ideal.matmul_constant_zero_apply, ← Equiv.sum_comp (contrEquiv1 DK 512 rfl rfl).symm]
  refine Finset.sum_congr rfl fun k _ => ?_
  have hk := contrEquiv1_symm_val DK 512 rfl rfl k
  have el : DK.lhsIdx (ix2 b q) ((contrEquiv1 DK 512 rfl rfl).symm k) = ix2 b k := funext fun a => Fin.ext (by
    match a with
    | ⟨0, _⟩ => exact dk_lhs0 _ _
    | ⟨1, _⟩ => exact (dk_lhs1 _ _).trans hk)
  have er : DK.rhsIdx (ix2 b q) ((contrEquiv1 DK 512 rfl rfl).symm k) = ix2 q k := funext fun a => Fin.ext (by
    match a with
    | ⟨0, _⟩ => exact dk_rhs0 _ _
    | ⟨1, _⟩ => exact (dk_rhs1 _ _).trans hk)
  rw [el, er]

/-- The cosine block at `(b, q)`. -/
private theorem pay4_at (x0 : Vec Ideal S1024x512 .bf16) (x2 : Vec Ideal S512x512 .bf16) (x3 : Vec Ideal S1x512 .f32)
    (b : Fin 1024) (q : Fin 512) :
    k0_pay4 (F := Ideal) x0 x2 x3 (ix2 b q) = cB x0 x2 x3 q b := by
  unfold k0_pay4
  rw [shapeCast_self, shapeCast_self, shapeCast_self]
  refine (mulf_apply _ _ _).trans ?_
  rw [broadcastTo_1b_ab_apply]
  exact congrArg (· * x3 (ix2 (0 : Fin 1) q)) (matmul_at x0 x2 b q)

/-- A column `[a, 1]` broadcast to `[a, b]` reads, at `(p, c)`, the column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-bit truth value, widened to 32 bits and converted to a float, is the number 1 or 0. -/
private theorem sitofp_bit (c : BitVec 1) : FloatOps.sitofp (F := Ideal) .f32 (c.setWidth 32) = Spec.ind c := by
  show (((c.setWidth 32).toInt : ℝ) : EReal) = Spec.ind c
  unfold Spec.ind
  rcases BitVec.eq_zero_or_eq_one c with h | h <;> subst h
  · rw [if_neg (by decide)]
    have e : (BitVec.setWidth 32 0#1).toInt = 0 := by decide
    rw [e]; simp
  · rw [if_pos rfl]
    have e : (BitVec.setWidth 32 1#1).toInt = 1 := by decide
    rw [e]; simp

/-- The truth value of an integer equality is the one-hot entry. -/
private theorem ind_cmpi_eq (x : BitVec 32) (c : ℕ) : Spec.ind (IntOp.cmpi .eq x (BitVec.ofNat 32 c)) = Spec.hot x c := by
  show (if BitVec.ofBool (x == BitVec.ofNat 32 c) = 1#1 then (1 : EReal) else 0) = if x = BitVec.ofNat 32 c then 1 else 0
  by_cases h : x = BitVec.ofNat 32 c
  · rw [if_pos h, if_pos]; rw [beq_iff_eq.mpr h]; rfl
  · have hb : (x == BitVec.ofNat 32 c) = false := beq_eq_false_iff_ne.mpr h
    rw [if_neg h, if_neg]; rw [hb]; decide

/-- The one-hot block at `(b, q)`: sample `b`'s target against the class number of column `q`. -/
private theorem pay5_at (i : grid0.Coords) (x1 : Vec Ideal S1024x1 .i32) (b : Fin 1024) (q : Fin 512) :
    k0_pay5 (F := Ideal) i x1 (ix2 b q) = hB i x1 q b := by
  unfold k0_pay5
  rw [shapeCast_self]
  refine (sitofp_apply _ _).trans ?_
  refine (congrArg (FloatOps.sitofp (F := Ideal) .f32) (extui_apply _ _ _)).trans ?_
  refine (sitofp_bit _).trans ?_
  show Spec.ind (IntOp.cmpi .eq (broadcastTo S1024x512 x1 broadcasts_S1024x1_S1024x512 (ix2 b q)) (broadcastTo S1024x512 _ broadcasts_S1x512_S1024x512 (ix2 b q))) = _
  rw [broadcastTo_a1_ab_apply, broadcastTo_1b_ab_apply]
  have e : addi (broadcast S1x512 (Scalar.muli (Scalar.addi (Scalar.muli (BitVec.ofNat 32 (i 0).val) 16#32) (BitVec.ofNat 32 (i 1).val)) 512#32))
      (iota .tc S1x512 32 [1] iota_S1x512_d1_w32) (ix2 (0 : Fin 1) q) = BitVec.ofNat 32 (cls i q) := by
    show IntOp.addi _ (iota .tc S1x512 32 [1] iota_S1x512_d1_w32 (ix2 (0 : Fin 1) q)) = _
    rw [iota_single_apply]
    show (BitVec.ofNat 32 (i 0).val * 16#32 + BitVec.ofNat 32 (i 1).val) * 512#32 + BitVec.ofNat 32 q.val = _
    unfold cls
    rw [BitVec.ofNat_add, BitVec.ofNat_mul, BitVec.ofNat_add, BitVec.ofNat_mul]
  rw [e]
  exact ind_cmpi_eq _ _

/-- The complement of the one-hot block. -/
private theorem pay6_at (i : grid0.Coords) (x1 : Vec Ideal S1024x1 .i32) (b : Fin 1024) (q : Fin 512) :
    k0_pay6 (F := Ideal) i x1 (ix2 b q) = Spec.f1 - hB i x1 q b := by
  unfold k0_pay6
  refine (subf_apply _ _ _).trans ?_
  exact congrArg (Spec.f1 - ·) (pay5_at i x1 b q)

/-- A sum over the 1024 sublanes of a `[1024, 512]` block, kept as a row: column `q`'s sum. -/
private theorem colsum_at (v : FVec Ideal S1024x512 .f32) (q : Fin 512) :
    shapeCast S1x512 (multiReduction (F := Ideal) .add [0] S512 v 0x00000000#32 reduces_S1024x512_S512 (.inl rfl) rfl) shapeCasts_S512_S1x512
      (ix2 (0 : Fin 1) q) = ∑ b : Fin 1024, v (ix2 b q) := by
  refine (shapeCast_a_1a_apply _ _ (0 : Fin 1) q).trans ?_
  refine (Ideal.multiReduction_add_single v 0x00000000#32 reduces_S1024x512_S512 (.inl rfl) rfl (ix1 q)).trans ?_
  show ∑ k : Fin 1024, v (reduces_S1024x512_S512.lift (ix1 q) k) = _
  refine Finset.sum_congr rfl fun k _ => congrArg v (funext fun a => Fin.ext ?_)
  match a with
  | ⟨0, _⟩ => rfl
  | ⟨1, _⟩ => rfl

/-- A sum over the 512 lanes of a row, kept as a `[1, 1]` scalar. -/
private theorem lanesum_at (v : FVec Ideal S1x512 .f32) :
    shapeCast S1x1 (multiReduction (F := Ideal) .add [1] S1 v 0x00000000#32 reduces_S1x512_S1 (.inl rfl) rfl) shapeCasts_S1_S1x1
      (ix2 (0 : Fin 1) (0 : Fin 1)) = ∑ q : Fin 512, v (ix2 (0 : Fin 1) q) := by
  refine (shapeCast_a_1a_apply _ _ (0 : Fin 1) (0 : Fin 1)).trans ?_
  refine (Ideal.multiReduction_add_single v 0x00000000#32 reduces_S1x512_S1 (.inl rfl) rfl (ix1 (0 : Fin 1))).trans ?_
  show ∑ k : Fin 512, v (reduces_S1x512_S1.lift (ix1 (0 : Fin 1)) k) = _
  refine Finset.sum_congr rfl fun k _ => congrArg v (funext fun a => Fin.ext ?_)
  match a with
  | ⟨0, _⟩ => rfl
  | ⟨1, _⟩ => rfl

/-- The class counts: column `q`'s one-hot sum. -/
private theorem pay7_at (i : grid0.Coords) (x1 : Vec Ideal S1024x1 .i32) (q : Fin 512) :
    k0_pay7 (F := Ideal) i x1 (ix2 (0 : Fin 1) q) = ∑ b : Fin 1024, hB i x1 q b := by
  unfold k0_pay7
  refine (colsum_at _ q).trans ?_
  exact Finset.sum_congr rfl fun b _ => pay5_at i x1 b q

/-- Whether the class of column `q` is present. -/
private theorem pay8_at (i : grid0.Coords) (x1 : Vec Ideal S1024x1 .i32) (q : Fin 512) :
    k0_pay8 (F := Ideal) i x1 (ix2 (0 : Fin 1) q) = Spec.present (hB i x1 q) := by
  unfold k0_pay8
  show FloatOps.sitofp (F := Ideal) .f32 ((Ideal.cmp .ogt (k0_pay7 (F := Ideal) i x1 (ix2 (0 : Fin 1) q)) Spec.f0).setWidth 32) = _
  rw [sitofp_bit, pay7_at]
  rfl

/-- The number of negatives of column `q`. -/
private theorem pay9_at (i : grid0.Coords) (x1 : Vec Ideal S1024x1 .i32) (q : Fin 512) :
    k0_pay9 (F := Ideal) i x1 (ix2 (0 : Fin 1) q) = Spec.fB - ∑ b : Fin 1024, hB i x1 q b := by
  unfold k0_pay9
  refine (subf_apply _ _ _).trans ?_
  exact congrArg (Spec.fB - ·) (pay7_at i x1 q)

/-- The effective numbers pass through unchanged. -/
private theorem pay10_eq (x4 : Vec Ideal S1x512 .f32) : k0_pay10 (F := Ideal) x4 = x4 := by
  unfold k0_pay10
  exact shapeCast_self _ _

/-- The weight of a negative at `(b, q)`. -/
private theorem pay11_at (v14 : FVec Ideal S1024x512 .f32) (v36 : FVec Ideal S1x512 .f32) (v37 : Vec Ideal S1x512 .f32) (b : Fin 1024) (q : Fin 512) :
    k0_pay11 (F := Ideal) v14 v36 v37 (ix2 b q) = Spec.negVal (v14 (ix2 b q)) (v36 (ix2 (0 : Fin 1) q)) (v37 (ix2 (0 : Fin 1) q)) := by
  unfold k0_pay11
  rw [shapeCast_self, shapeCast_self]
  refine (select_apply _ _ _ _).trans ?_
  show Scalar.select (Ideal.cmp .olt (v14 (ix2 b q)) (broadcastTo S1024x512 _ broadcasts_S1x512_S1024x512 (ix2 b q)))
    (broadcastTo S1024x512 _ broadcasts_S1x512_S1024x512 (ix2 b q)) Spec.f1 = _
  rw [broadcastTo_1b_ab_apply, broadcastTo_1b_ab_apply]
  rfl

/-- The positives' exponent at `(b, q)`. -/
private theorem pay13_at (v14 : FVec Ideal S1024x512 .f32) (b : Fin 1024) (q : Fin 512) :
    k0_pay13 (F := Ideal) v14 (ix2 b q) = Spec.fAlpha * (Spec.fMrg - v14 (ix2 b q)) := rfl

/-- The block's negative weights, summed over its 512 classes. -/
private theorem pay12_at (i : grid0.Coords) (x0 : Vec Ideal S1024x512 .bf16) (x1 : Vec Ideal S1024x1 .i32) (x2 : Vec Ideal S512x512 .bf16)
    (x3 x4 x5 : Vec Ideal S1x512 .f32) :
    k0_pay12 (F := Ideal) (k0_pay4 x0 x2 x3) (k0_pay6 i x1) (k0_pay9 i x1) (k0_pay10 x4) x5 (ix2 (0 : Fin 1) (0 : Fin 1))
      = part1 i x0 x1 x2 x3 x4 x5 := by
  unfold k0_pay12
  refine (lanesum_at _).trans ?_
  unfold part1
  refine Finset.sum_congr rfl fun q _ => ?_
  refine (select_apply _ _ _ _).trans ?_
  show Scalar.select (Ideal.cmp .ogt (k0_pay9 (F := Ideal) i x1 (ix2 (0 : Fin 1) q)) Spec.f0)
    (Ideal.div (shapeCast S1x512 (multiReduction (F := Ideal) .add [0] S512 _ 0x00000000#32 reduces_S1024x512_S512 (.inl rfl) rfl) shapeCasts_S512_S1x512 (ix2 (0 : Fin 1) q))
      (max (k0_pay9 (F := Ideal) i x1 (ix2 (0 : Fin 1) q)) Spec.f1)) Spec.f0 = _
  rw [colsum_at, pay9_at]
  unfold Spec.negW
  refine congrArg (fun s => Scalar.select _ (Ideal.div s _) _) (Finset.sum_congr rfl fun b _ => ?_)
  show k0_pay6 (F := Ideal) i x1 (ix2 b q) * k0_pay11 (F := Ideal) (k0_pay4 x0 x2 x3) (k0_pay10 x4) x5 (ix2 b q) = _
  rw [pay6_at, pay11_at, pay4_at, pay10_eq]

/-- The block's positive terms, summed over its 512 classes. -/
private theorem pay14_at (i : grid0.Coords) (x0 : Vec Ideal S1024x512 .bf16) (x1 : Vec Ideal S1024x1 .i32) (x2 : Vec Ideal S512x512 .bf16)
    (x3 : Vec Ideal S1x512 .f32) :
    k0_pay14 (F := Ideal) (k0_pay5 i x1) (k0_pay13 (k0_pay4 x0 x2 x3)) (ix2 (0 : Fin 1) (0 : Fin 1)) = part2 i x0 x1 x2 x3 := by
  unfold k0_pay14
  refine (lanesum_at _).trans ?_
  unfold part2
  refine Finset.sum_congr rfl fun q _ => ?_
  show Ideal.log1p (shapeCast S1x512 (multiReduction (F := Ideal) .add [0] S512 _ 0x00000000#32 reduces_S1024x512_S512 (.inl rfl) rfl) shapeCasts_S512_S1x512 (ix2 (0 : Fin 1) q)) = _
  rw [colsum_at]
  unfold Spec.posL
  refine congrArg Ideal.log1p (Finset.sum_congr rfl fun b _ => ?_)
  show k0_pay5 (F := Ideal) i x1 (ix2 b q) * Ideal.exp (k0_pay13 (F := Ideal) (k0_pay4 x0 x2 x3) (ix2 b q)) = _
  rw [pay5_at, pay13_at, pay4_at]

/-- The block's negative terms, summed over its 512 classes. -/
private theorem pay15_at (i : grid0.Coords) (x0 : Vec Ideal S1024x512 .bf16) (x1 : Vec Ideal S1024x1 .i32) (x2 : Vec Ideal S512x512 .bf16)
    (x3 x4 x5 : Vec Ideal S1x512 .f32) :
    k0_pay15 (F := Ideal) (k0_pay4 x0 x2 x3) (k0_pay6 i x1) (k0_pay11 (k0_pay4 x0 x2 x3) (k0_pay10 x4) x5) (ix2 (0 : Fin 1) (0 : Fin 1))
      = part3 i x0 x1 x2 x3 x4 x5 := by
  unfold k0_pay15
  refine (lanesum_at _).trans ?_
  unfold part3
  refine Finset.sum_congr rfl fun q _ => ?_
  show Ideal.log1p (shapeCast S1x512 (multiReduction (F := Ideal) .add [0] S512 _ 0x00000000#32 reduces_S1024x512_S512 (.inl rfl) rfl) shapeCasts_S512_S1x512 (ix2 (0 : Fin 1) q)) = _
  rw [colsum_at]
  unfold Spec.negL
  refine congrArg Ideal.log1p (Finset.sum_congr rfl fun b _ => ?_)
  show k0_pay6 (F := Ideal) i x1 (ix2 b q) * Ideal.exp (Spec.fAlpha * (k0_pay4 (F := Ideal) x0 x2 x3 (ix2 b q) + Spec.fMrg)
    * k0_pay11 (F := Ideal) (k0_pay4 x0 x2 x3) (k0_pay10 x4) x5 (ix2 b q)) = _
  rw [pay6_at, pay11_at, pay4_at, pay10_eq]

/-- The number of present classes of the block: the lane sum of the presence row. -/
private theorem present_sum (i : grid0.Coords) (x1 : Vec Ideal S1024x1 .i32) :
    shapeCast S1x1 (multiReduction (F := Ideal) .add [1] S1 (k0_pay8 i x1) 0x00000000#32 reduces_S1x512_S1 (.inl rfl) rfl) shapeCasts_S1_S1x1
      (ix2 (0 : Fin 1) (0 : Fin 1)) = part0 i x1 := by
  refine (lanesum_at _).trans ?_
  unfold part0
  exact Finset.sum_congr rfl fun q _ => pay8_at i x1 q

/-- A `[1, 1]` scalar broadcast to `[a, b]` reads the scalar everywhere. -/
private theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The accumulation every one of the four stores makes: the row viewed `[8, 128]`, the scalar added everywhere, viewed `[1, 8, 128]` again. -/
private theorem store_at (s : FVec Ideal S1x1 .f32) (v : Vec Ideal S1x8x128 .f32) (y : S1x8x128.Idx) :
    shapeCast S1x8x128 (addf (shapeCast S8x128 v shapeCasts_S1x8x128_S8x128)
      (broadcastTo S8x128 (shapeCast S1x1 s shapeCasts_S1x1_S1x1) broadcasts_S1x1_S8x128)) shapeCasts_S8x128_S1x8x128 y
      = v y + s (ix2 (0 : Fin 1) (0 : Fin 1)) := by
  obtain ⟨u, r, c, rfl⟩ : ∃ (u : Fin 1) (r : Fin 8) (c : Fin 128), y = ix3 u r c := ⟨y 0, y 1, y 2, eq_ix3 y⟩
  obtain rfl : u = 0 := Subsingleton.elim _ _
  rw [shapeCast_self]
  refine (shapeCast_ab_1ab_apply _ _ (0 : Fin 1) r c).trans ?_
  refine (addf_apply _ _ _).trans ?_
  rw [shapeCast_1ab_ab_apply, broadcastTo_11_ab_apply]

/-- Row 0 of the output block after the point: what it held plus the number of present classes of the block. -/
theorem pay16_apply (i : grid0.Coords) (x1 : Vec Ideal S1024x1 .i32) (v : Vec Ideal S1x8x128 .f32) (y : S1x8x128.Idx) :
    k0_pay16 (F := Ideal) (k0_pay8 i x1) v y = v y + part0 i x1 := by
  unfold k0_pay16
  exact (store_at _ v y).trans (congrArg (v y + ·) (present_sum i x1))

/-- Row 1: plus the block's negative weights. -/
theorem pay17_apply (i : grid0.Coords) (x0 : Vec Ideal S1024x512 .bf16) (x1 : Vec Ideal S1024x1 .i32) (x2 : Vec Ideal S512x512 .bf16)
    (x3 x4 x5 : Vec Ideal S1x512 .f32) (v : Vec Ideal S1x8x128 .f32) (y : S1x8x128.Idx) :
    k0_pay17 (F := Ideal) (k0_pay12 (k0_pay4 x0 x2 x3) (k0_pay6 i x1) (k0_pay9 i x1) (k0_pay10 x4) x5) v y = v y + part1 i x0 x1 x2 x3 x4 x5 := by
  unfold k0_pay17
  exact (store_at _ v y).trans (congrArg (v y + ·) (pay12_at i x0 x1 x2 x3 x4 x5))

/-- Row 2: plus the block's positive terms. -/
theorem pay1_apply (i : grid0.Coords) (x0 : Vec Ideal S1024x512 .bf16) (x1 : Vec Ideal S1024x1 .i32) (x2 : Vec Ideal S512x512 .bf16)
    (x3 : Vec Ideal S1x512 .f32) (v : Vec Ideal S1x8x128 .f32) (y : S1x8x128.Idx) :
    k0_pay1 (F := Ideal) (k0_pay14 (k0_pay5 i x1) (k0_pay13 (k0_pay4 x0 x2 x3))) v y = v y + part2 i x0 x1 x2 x3 := by
  unfold k0_pay1
  exact (store_at _ v y).trans (congrArg (v y + ·) (pay14_at i x0 x1 x2 x3))

/-- Row 3: plus the block's negative terms. -/
theorem pay2_apply (i : grid0.Coords) (x0 : Vec Ideal S1024x512 .bf16) (x1 : Vec Ideal S1024x1 .i32) (x2 : Vec Ideal S512x512 .bf16)
    (x3 x4 x5 : Vec Ideal S1x512 .f32) (v : Vec Ideal S1x8x128 .f32) (y : S1x8x128.Idx) :
    k0_pay2 (F := Ideal) (k0_pay15 (k0_pay4 x0 x2 x3) (k0_pay6 i x1) (k0_pay11 (k0_pay4 x0 x2 x3) (k0_pay10 x4) x5)) v y = v y + part3 i x0 x1 x2 x3 x4 x5 := by
  unfold k0_pay2
  exact (store_at _ v y).trans (congrArg (v y + ·) (pay15_at i x0 x1 x2 x3 x4 x5))

end Cert.KernelIdeal.KPay

end
-- ==== Proof.KAcc.lean ====
/- The output array after the kernel's run: row `8·g` … `8·g+7` of plane `k` holds, in every lane, the `k`-th running sum of core `g`'s
   sixteen grid points. -/
import proofs.«108357_j10222022165009_2_alg».proof.Proof.KPay
import proofs.«108357_j10222022165009_2_alg».proof.Proof.Gen.KernelIdeal.Frame

noncomputable section

namespace Cert.KernelIdeal.KAcc

open Idealize.ShloMosaic Idealize.ShloMosaic.TcCoe Idealize.ShloMosaic.ValueIdx Idealize.SL.Sem Cert.KernelIdeal Cert.KernelIdeal.Gen

open Idealize.ShloMosaic.Tactic

/-! ## A [4,8,128] block written plane by plane

The body stores the output block as four [1,8,128] planes, plane `j` at offsets (j, 0, 0). The index (k, r, l) lies in plane `k`
only, at the plane's own index (0, r, l). -/

section Planes

/-- Plane `j` of the block, as a rectangle of it. -/
abbrev plane (j : ℕ) (inb : ∀ a, (![j, 0, 0] : Fin 3 → ℕ) a + (![1, 8, 128] : Fin 3 → ℕ) a ≤ S4x8x128.size a) : Rect S4x8x128 :=
  Rect.unit (s := S4x8x128) ![j, 0, 0] ![1, 8, 128] inb

/-- The plane's index (0, r, l) sits in the block at (j, r, l). -/
theorem plane_emb (j : ℕ) (inb) (k : Fin 4) (hk : k.val = j) (r : Fin 8) (l : Fin 128) :
    (plane j inb).emb (ix3 (0 : Fin 1) r l) = ix3 k r l := by
  funext a
  apply Fin.ext
  match a with
  | ⟨0, _⟩ => show j + 1 * 0 = k.val; omega
  | ⟨1, _⟩ => show 0 + 1 * r.val = r.val; omega
  | ⟨2, _⟩ => show 0 + 1 * l.val = l.val; omega

/-- An index of another plane is not in plane `j`. -/
theorem not_mem_plane (j : ℕ) (inb) (k : Fin 4) (hk : k.val ≠ j) (r : Fin 8) (l : Fin 128) :
    (ix3 k r l : S4x8x128.Idx) ∉ (plane j inb).set := by
  intro hm
  have h := (Rect.mem_set_unit.mp hm) (0 : Fin 3)
  have h1 : j ≤ k.val := h.1
  have h2 : k.val < j + 1 := h.2
  omega

variable {Val : EltTy → Type} [∀ e, Nonempty (Val e)] {e : EltTy}

/-- A store to another plane does not change what (k, r, l) holds. -/
theorem canon_skip (j : ℕ) (inb) (w : S1x8x128.Idx → Val e) (L : List (View.Piece Val S4x8x128 e))
    (k : Fin 4) (hk : k.val ≠ j) (r : Fin 8) (l : Fin 128) :
    View.canon ((⟨plane j inb, w⟩ : View.Piece Val S4x8x128 e) :: L) (ix3 k r l) = View.canon L (ix3 k r l) :=
  View.canon_cons_of_not_mem (⟨plane j inb, w⟩ : View.Piece Val S4x8x128 e) L (not_mem_plane j inb k hk r l)

/-- The last store to plane `k` leaves its payload at (k, r, l). -/
theorem canon_hit (j : ℕ) (inb) (w : S1x8x128.Idx → Val e) (L : List (View.Piece Val S4x8x128 e))
    (k : Fin 4) (hk : k.val = j) (r : Fin 8) (l : Fin 128) :
    View.canon ((⟨plane j inb, w⟩ : View.Piece Val S4x8x128 e) :: L) (ix3 k r l) = w (ix3 (0 : Fin 1) r l) :=
  (congrArg (View.canon ((⟨plane j inb, w⟩ : View.Piece Val S4x8x128 e) :: L)) (plane_emb j inb k hk r l).symm).trans
    (View.canon_cons_emb (plane j inb) w L (ix3 (0 : Fin 1) r l))

/-- Of four payloads, the one of plane `k`. -/
def sel {α : Type} (w0 w1 w2 w3 : α) : Fin 4 → α
  | 0 => w0
  | 1 => w1
  | 2 => w2
  | 3 => w3

/-- What four plane stores (the last made first) leave at (k, r, l), over any earlier stores: plane `k`'s payload at (0, r, l). -/
theorem canon_planes (inb0 inb1 inb2 inb3) (w0 w1 w2 w3 : S1x8x128.Idx → Val e) (L : List (View.Piece Val S4x8x128 e))
    (k : Fin 4) (r : Fin 8) (l : Fin 128) :
    View.canon ((⟨plane 3 inb3, w3⟩ : View.Piece Val S4x8x128 e) :: ⟨plane 2 inb2, w2⟩ :: ⟨plane 1 inb1, w1⟩ :: ⟨plane 0 inb0, w0⟩ :: L) (ix3 k r l)
      = sel w0 w1 w2 w3 k (ix3 (0 : Fin 1) r l) := by
  match k with
  | 0 =>
    exact (canon_skip 3 inb3 w3 _ 0 (by decide) r l).trans ((canon_skip 2 inb2 w2 _ 0 (by decide) r l).trans
      ((canon_skip 1 inb1 w1 _ 0 (by decide) r l).trans (canon_hit 0 inb0 w0 L 0 rfl r l)))
  | 1 =>
    exact (canon_skip 3 inb3 w3 _ 1 (by decide) r l).trans ((canon_skip 2 inb2 w2 _ 1 (by decide) r l).trans
      (canon_hit 1 inb1 w1 _ 1 rfl r l))
  | 2 =>
    exact (canon_skip 3 inb3 w3 _ 2 (by decide) r l).trans (canon_hit 2 inb2 w2 _ 2 rfl r l)
  | 3 =>
    exact canon_hit 3 inb3 w3 _ 3 rfl r l

end Planes

/-! ## What each case leaves in the output block, as payloads -/

section Found

variable {F : FTy → Type} [FloatOps F]

theorem hz2 : (![0, 0] : Fin 2 → ℕ) = fun _ => 0 := funext fun a => by fin_cases a <;> rfl
theorem hz3 : (![0, 0, 0] : Fin 3 → ℕ) = fun _ => 0 := funext fun a => by fin_cases a <;> rfl

/-- Plane `j` of a block's contents, as the load of it reads them. -/
abbrev rowOf (v : Vec F S4x8x128 .f32) (j : ℕ) (inb : ∀ a, (![j, 0, 0] : Fin 3 → ℕ) a + (![1, 8, 128] : Fin 3 → ℕ) a ≤ S4x8x128.size a) :
    Vec F S1x8x128 .f32 := View.ld v (plane j inb)

/-- The four planes' payloads over the contents `v` the loads found. -/
abbrev planesOver (i : grid0.Coords) (x0 : Vec F S1024x512 .bf16) (x1 : Vec F S1024x1 .i32) (x2 : Vec F S512x512 .bf16) (x3 : Vec F S1x512 .f32) (x4 : Vec F S1x512 .f32) (x5 : Vec F S1x512 .f32) (v : Vec F S4x8x128 .f32) : Fin 4 → Vec F S1x8x128 .f32 :=
  sel (k0_pay16 (k0_pay8 i x1) (rowOf v 0 inb_S4x8x128_S1x8x128_0_0_0))
    (k0_pay17 (k0_pay12 (k0_pay4 x0 x2 x3) (k0_pay6 i x1) (k0_pay9 i x1) (k0_pay10 x4) x5) (rowOf v 1 inb_S4x8x128_S1x8x128_1_0_0))
    (k0_pay1 (k0_pay14 (k0_pay5 i x1) (k0_pay13 (k0_pay4 x0 x2 x3))) (rowOf v 2 inb_S4x8x128_S1x8x128_2_0_0))
    (k0_pay2 (k0_pay15 (k0_pay4 x0 x2 x3) (k0_pay6 i x1) (k0_pay11 (k0_pay4 x0 x2 x3) (k0_pay10 x4) x5)) (rowOf v 3 inb_S4x8x128_S1x8x128_3_0_0))

/-- CASE B (a point that is not a core's first): over the contents `xo6` the point before left, plane `k` ends at its payload over
    plane `k` of `xo6`. -/
theorem outB_apply (c : Dev nD) (i : grid0.Coords) (arg2 : Memref sig .tc .vmem S1024x512 .bf16) (harg2 : arg2.IsWhole) (arg3 : Memref sig .tc .vmem S1024x1 .i32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4x8x128 .f32) (harg8 : arg8.IsWhole) (hc0 : ¬cond0_0 i) (x0 : Vec F S1024x512 .bf16) (x1 : Vec F S1024x1 .i32) (x2 : Vec F S512x512 .bf16) (x3 : Vec F S1x512 .f32) (x4 : Vec F S1x512 .f32) (x5 : Vec F S1x512 .f32) (xo6 : Vec F S4x8x128 .f32) (k : Fin 4) (r : Fin 8) (l : Fin 128) :
    out0_B_6 c i arg2 harg2 arg3 harg3 arg4 harg4 arg5 harg5 arg6 harg6 arg7 harg7 arg8 harg8 hc0 x0 x1 x2 x3 x4 x5 xo6 (ix3 k r l) = planesOver i x0 x1 x2 x3 x4 x5 xo6 k (ix3 (0 : Fin 1) r l) := by
  unfold out0_B_6
  rw [View.read_writes_eq_canon _ _ _ (cover0_B_6 c i arg2 harg2 arg3 harg3 arg4 harg4 arg5 harg5 arg6 harg6 arg7 harg7 arg8 harg8 hc0 x0 x1 x2 x3 x4 x5 xo6)]
  unfold kernelRun0_B
  dsimp only
  sl_unfold_words
  simp only [View.readAt_eq_ld, harg2.read_unread, harg3.read_unread, harg4.read_unread, harg5.read_unread, harg6.read_unread,
    harg7.read_unread, harg8.read_unread, View.ld_unit_zero (S := S1024x512) hz2, View.ld_unit_zero (S := S1024x1) hz2,
    View.ld_unit_zero (S := S512x512) hz2, View.ld_unit_zero (S := S1x512) hz2]
  exact canon_planes inb_S4x8x128_S1x8x128_0_0_0 inb_S4x8x128_S1x8x128_1_0_0 inb_S4x8x128_S1x8x128_2_0_0 inb_S4x8x128_S1x8x128_3_0_0
    _ _ _ _ [] k r l

end Found

section FoundA

variable {F : FTy → Type} [FloatOps F]
variable {sg : RefSig} {κ : Kind} {sp : Space}

/-- A load of plane `j'` does not see a store to another plane `j`. -/
theorem readCov_skip (v : View sg κ sp S4x8x128 .f32) (j : ℕ) (inb) (w : Vec F S1x8x128 .f32) (L : List (View.Piece (Elt F) S4x8x128 .f32))
    (j' : ℕ) (inb') (h : j ≠ j') :
    v.readCov ((⟨plane j inb, w⟩ : View.Piece (Elt F) S4x8x128 .f32) :: L) (plane j' inb').toLoadRect = v.readCov L (plane j' inb').toLoadRect :=
  View.readCov_cons_of_disjoint v (⟨plane j inb, w⟩ : View.Piece (Elt F) S4x8x128 .f32) L (plane j' inb').toLoadRect
    (Rect.unit_disjoint (inb := inb) (inb' := inb') (0 : Fin 3) (by show j + 1 ≤ j' ∨ j' + 1 ≤ j; omega))

/-- A load of plane `j'` after a store of the whole block reads that plane of the stored contents. -/
theorem readCov_whole (v : View sg κ sp S4x8x128 .f32) (inb0) (w : Vec F S4x8x128 .f32) (j' : ℕ) (inb') :
    v.readCov [(⟨Rect.unit (s := S4x8x128) ![0, 0, 0] S4x8x128.size inb0, w⟩ : View.Piece (Elt F) S4x8x128 .f32)] (plane j' inb').toLoadRect
      = rowOf w j' inb' := by
  rw [View.readCov_eq_canon', View.canon_unit_zero hz3]
  rfl

/-- CASE A (a core's first point): the body stores the zero block, then plane `k` ends at its payload over plane `k` of the zero block. -/
theorem outA_apply (c : Dev nD) (i : grid0.Coords) (arg2 : Memref sig .tc .vmem S1024x512 .bf16) (harg2 : arg2.IsWhole) (arg3 : Memref sig .tc .vmem S1024x1 .i32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4x8x128 .f32) (harg8 : arg8.IsWhole) (hc0 : cond0_0 i) (x0 : Vec F S1024x512 .bf16) (x1 : Vec F S1024x1 .i32) (x2 : Vec F S512x512 .bf16) (x3 : Vec F S1x512 .f32) (x4 : Vec F S1x512 .f32) (x5 : Vec F S1x512 .f32) (k : Fin 4) (r : Fin 8) (l : Fin 128) :
    out0_A_6 c i arg2 harg2 arg3 harg3 arg4 harg4 arg5 harg5 arg6 harg6 arg7 harg7 arg8 harg8 hc0 x0 x1 x2 x3 x4 x5 (ix3 k r l) = planesOver i x0 x1 x2 x3 x4 x5 (k0_pay3 (F := F)) k (ix3 (0 : Fin 1) r l) := by
  unfold out0_A_6
  rw [View.read_writes_eq_canon _ _ _ (cover0_A_6 c i arg2 harg2 arg3 harg3 arg4 harg4 arg5 harg5 arg6 harg6 arg7 harg7 arg8 harg8 hc0 x0 x1 x2 x3 x4 x5)]
  unfold kernelRun0_A
  dsimp only
  sl_unfold_words
  simp only [View.readAt_eq_ld, harg2.read_unread, harg3.read_unread, harg4.read_unread, harg5.read_unread, harg6.read_unread,
    harg7.read_unread, View.ld_unit_zero (S := S1024x512) hz2, View.ld_unit_zero (S := S1024x1) hz2,
    View.ld_unit_zero (S := S512x512) hz2, View.ld_unit_zero (S := S1x512) hz2]
  rw [readCov_whole arg8.view inb_S4x8x128_S4x8x128_0_0_0 (k0_pay3 (F := F)) 0 inb_S4x8x128_S1x8x128_0_0_0]
  rw [readCov_skip arg8.view 0 inb_S4x8x128_S1x8x128_0_0_0 _ _ 1 inb_S4x8x128_S1x8x128_1_0_0 (by decide),
    readCov_whole arg8.view inb_S4x8x128_S4x8x128_0_0_0 (k0_pay3 (F := F)) 1 inb_S4x8x128_S1x8x128_1_0_0]
  rw [readCov_skip arg8.view 1 inb_S4x8x128_S1x8x128_1_0_0 _ _ 2 inb_S4x8x128_S1x8x128_2_0_0 (by decide),
    readCov_skip arg8.view 0 inb_S4x8x128_S1x8x128_0_0_0 _ _ 2 inb_S4x8x128_S1x8x128_2_0_0 (by decide),
    readCov_whole arg8.view inb_S4x8x128_S4x8x128_0_0_0 (k0_pay3 (F := F)) 2 inb_S4x8x128_S1x8x128_2_0_0]
  rw [readCov_skip arg8.view 2 inb_S4x8x128_S1x8x128_2_0_0 _ _ 3 inb_S4x8x128_S1x8x128_3_0_0 (by decide),
    readCov_skip arg8.view 1 inb_S4x8x128_S1x8x128_1_0_0 _ _ 3 inb_S4x8x128_S1x8x128_3_0_0 (by decide),
    readCov_skip arg8.view 0 inb_S4x8x128_S1x8x128_0_0_0 _ _ 3 inb_S4x8x128_S1x8x128_3_0_0 (by decide),
    readCov_whole arg8.view inb_S4x8x128_S4x8x128_0_0_0 (k0_pay3 (F := F)) 3 inb_S4x8x128_S1x8x128_3_0_0]
  exact canon_planes inb_S4x8x128_S1x8x128_0_0_0 inb_S4x8x128_S1x8x128_1_0_0 inb_S4x8x128_S1x8x128_2_0_0 inb_S4x8x128_S1x8x128_3_0_0
    _ _ _ _ _ k r l

end FoundA

/-! ## Over the extended reals: each point adds its four partial sums -/

section AtIdeal

/-- What a point with coordinates `i` and input blocks `x0 … x5` adds to running sum `k`. -/
abbrev parts (i : grid0.Coords) (x0 : Vec Ideal S1024x512 .bf16) (x1 : Vec Ideal S1024x1 .i32) (x2 : Vec Ideal S512x512 .bf16) (x3 : Vec Ideal S1x512 .f32) (x4 : Vec Ideal S1x512 .f32) (x5 : Vec Ideal S1x512 .f32) : Fin 4 → EReal :=
  sel (KPay.part0 i x1) (KPay.part1 i x0 x1 x2 x3 x4 x5) (KPay.part2 i x0 x1 x2 x3) (KPay.part3 i x0 x1 x2 x3 x4 x5)

/-- Plane `k`'s payload over contents `v`, at (0, r, l): `v` at (k, r, l) plus the point's `k`-th partial sum. -/
theorem planesOver_apply (i : grid0.Coords) (x0 : Vec Ideal S1024x512 .bf16) (x1 : Vec Ideal S1024x1 .i32) (x2 : Vec Ideal S512x512 .bf16) (x3 : Vec Ideal S1x512 .f32) (x4 : Vec Ideal S1x512 .f32) (x5 : Vec Ideal S1x512 .f32) (v : Vec Ideal S4x8x128 .f32) (k : Fin 4) (r : Fin 8) (l : Fin 128) :
    planesOver i x0 x1 x2 x3 x4 x5 v k (ix3 (0 : Fin 1) r l) = v (ix3 k r l) + parts i x0 x1 x2 x3 x4 x5 k := by
  match k with
  | 0 =>
    exact (KPay.pay16_apply i x1 (rowOf v 0 inb_S4x8x128_S1x8x128_0_0_0) (ix3 (0 : Fin 1) r l)).trans
      (congrArg (fun y => v y + KPay.part0 i x1) (plane_emb 0 inb_S4x8x128_S1x8x128_0_0_0 0 rfl r l))
  | 1 =>
    exact (KPay.pay17_apply i x0 x1 x2 x3 x4 x5 (rowOf v 1 inb_S4x8x128_S1x8x128_1_0_0) (ix3 (0 : Fin 1) r l)).trans
      (congrArg (fun y => v y + KPay.part1 i x0 x1 x2 x3 x4 x5) (plane_emb 1 inb_S4x8x128_S1x8x128_1_0_0 1 rfl r l))
  | 2 =>
    exact (KPay.pay1_apply i x0 x1 x2 x3 (rowOf v 2 inb_S4x8x128_S1x8x128_2_0_0) (ix3 (0 : Fin 1) r l)).trans
      (congrArg (fun y => v y + KPay.part2 i x0 x1 x2 x3) (plane_emb 2 inb_S4x8x128_S1x8x128_2_0_0 2 rfl r l))
  | 3 =>
    exact (KPay.pay2_apply i x0 x1 x2 x3 x4 x5 (rowOf v 3 inb_S4x8x128_S1x8x128_3_0_0) (ix3 (0 : Fin 1) r l)).trans
      (congrArg (fun y => v y + KPay.part3 i x0 x1 x2 x3 x4 x5) (plane_emb 3 inb_S4x8x128_S1x8x128_3_0_0 3 rfl r l))

/-- The zero block is zero. -/
theorem pay3_apply (y : S4x8x128.Idx) : k0_pay3 (F := Ideal) y = 0 := Ideal.ofBits_zero_f32

/-- CASE B over the extended reals: what the point before left plus the point's partial sum. -/
theorem outB_ideal (c : Dev nD) (i : grid0.Coords) (arg2 : Memref sig .tc .vmem S1024x512 .bf16) (harg2 : arg2.IsWhole) (arg3 : Memref sig .tc .vmem S1024x1 .i32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4x8x128 .f32) (harg8 : arg8.IsWhole) (hc0 : ¬cond0_0 i) (x0 : Vec Ideal S1024x512 .bf16) (x1 : Vec Ideal S1024x1 .i32) (x2 : Vec Ideal S512x512 .bf16) (x3 : Vec Ideal S1x512 .f32) (x4 : Vec Ideal S1x512 .f32) (x5 : Vec Ideal S1x512 .f32) (xo6 : Vec Ideal S4x8x128 .f32) (k : Fin 4) (r : Fin 8) (l : Fin 128) :
    out0_B_6 (F := Ideal) c i arg2 harg2 arg3 harg3 arg4 harg4 arg5 harg5 arg6 harg6 arg7 harg7 arg8 harg8 hc0 x0 x1 x2 x3 x4 x5 xo6 (ix3 k r l) = xo6 (ix3 k r l) + parts i x0 x1 x2 x3 x4 x5 k :=
  (outB_apply c i arg2 harg2 arg3 harg3 arg4 harg4 arg5 harg5 arg6 harg6 arg7 harg7 arg8 harg8 hc0 x0 x1 x2 x3 x4 x5 xo6 k r l).trans (planesOver_apply i x0 x1 x2 x3 x4 x5 xo6 k r l)

/-- CASE A over the extended reals: the point's partial sum. -/
theorem outA_ideal (c : Dev nD) (i : grid0.Coords) (arg2 : Memref sig .tc .vmem S1024x512 .bf16) (harg2 : arg2.IsWhole) (arg3 : Memref sig .tc .vmem S1024x1 .i32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4x8x128 .f32) (harg8 : arg8.IsWhole) (hc0 : cond0_0 i) (x0 : Vec Ideal S1024x512 .bf16) (x1 : Vec Ideal S1024x1 .i32) (x2 : Vec Ideal S512x512 .bf16) (x3 : Vec Ideal S1x512 .f32) (x4 : Vec Ideal S1x512 .f32) (x5 : Vec Ideal S1x512 .f32) (k : Fin 4) (r : Fin 8) (l : Fin 128) :
    out0_A_6 (F := Ideal) c i arg2 harg2 arg3 harg3 arg4 harg4 arg5 harg5 arg6 harg6 arg7 harg7 arg8 harg8 hc0 x0 x1 x2 x3 x4 x5 (ix3 k r l) = parts i x0 x1 x2 x3 x4 x5 k :=
  (outA_apply c i arg2 harg2 arg3 harg3 arg4 harg4 arg5 harg5 arg6 harg6 arg7 harg7 arg8 harg8 hc0 x0 x1 x2 x3 x4 x5 k r l).trans ((planesOver_apply i x0 x1 x2 x3 x4 x5 (k0_pay3 (F := Ideal)) k r l).trans
    (by rw [pay3_apply, zero_add]))

end AtIdeal

variable (m : (ℓ : Loc nD τ sig) → Buf (Elt Ideal) ℓ) (c : Dev nD)

/-- What grid point `t` adds to running sum `k`, from the point's input blocks. -/
def partAt (t : Fin cfg0.N) : Fin 4 → EReal
  | 0 => KPay.part0 (grid0.coords t) (iblk m c 1 t)
  | 1 => KPay.part1 (grid0.coords t) (iblk m c 0 t) (iblk m c 1 t) (iblk m c 2 t) (iblk m c 3 t) (iblk m c 4 t) (iblk m c 5 t)
  | 2 => KPay.part2 (grid0.coords t) (iblk m c 0 t) (iblk m c 1 t) (iblk m c 2 t) (iblk m c 3 t)
  | 3 => KPay.part3 (grid0.coords t) (iblk m c 0 t) (iblk m c 1 t) (iblk m c 2 t) (iblk m c 3 t) (iblk m c 4 t) (iblk m c 5 t)

/-- The sixteen points of core `g`. -/
def pt (g : Fin 2) (s : Fin 16) : Fin cfg0.N :=
  ⟨g.val * 16 + s.val, by have h2 : cfg0.N = 32 := N_0; have := g.isLt; have := s.isLt; omega⟩

/-! ## Point by point: the running sums -/

section Points

/-- `partAt` is the point's partial sums at its coordinates and input blocks. -/
theorem partAt_eq (t : Fin cfg0.N) (k : Fin 4) :
    partAt m c t k = parts (grid0.coords t) (iblk m c 0 t) (iblk m c 1 t) (iblk m c 2 t) (iblk m c 3 t) (iblk m c 4 t) (iblk m c 5 t) k := by
  match k with
  | 0 => rfl
  | 1 => rfl
  | 2 => rfl
  | 3 => rfl

/-- At a core's first point the output block holds the point's partial sums. -/
theorem outsAt_A_apply (t : Fin cfg0.N) (h0 : t.val % 16 = 0) (k : Fin 4) (r : Fin 8) (l : Fin 128) :
    outsAt0 m c t.val t.isLt (ix3 k r l) = partAt m c t k :=
  (congrFun (outsAt0_A m c t h0) (ix3 k r l)).trans
    ((outA_ideal c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t) (iblk m c 5 t) k r l).trans (partAt_eq m c t k).symm)

/-- At any other point it holds what the point before left plus the point's partial sums. -/
theorem outsAt_B_apply (t : Fin cfg0.N) (h0 : ¬t.val % 16 = 0) (k : Fin 4) (r : Fin 8) (l : Fin 128) :
    outsAt0 m c t.val t.isLt (ix3 k r l)
      = outsAt0 m c (t.val - 1) (Nat.lt_of_le_of_lt (Nat.sub_le _ _) t.isLt) (ix3 k r l) + partAt m c t k :=
  (congrFun (outsAt0_B m c t h0) (ix3 k r l)).trans
    ((outB_ideal c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) (iblk m c 5 t)
      (outsAt0 m c (t.val - 1) (Nat.lt_of_le_of_lt (Nat.sub_le _ _) t.isLt)) k r l).trans
      (congrArg (fun z => outsAt0 m c (t.val - 1) (Nat.lt_of_le_of_lt (Nat.sub_le _ _) t.isLt) (ix3 k r l) + z) (partAt_eq m c t k).symm))

/-- The addend of point `n` to running sum `k` (zero past the grid). -/
def addend (k : Fin 4) (n : ℕ) : EReal := if h : n < cfg0.N then partAt m c ⟨n, h⟩ k else 0

theorem addend_of_lt (k : Fin 4) (n : ℕ) (h : n < cfg0.N) : addend m c k n = partAt m c ⟨n, h⟩ k := dif_pos h

/-- After point `n` the block holds, at (k, r, l), the sum of the addends of the core's points up to `n`. -/
theorem outsAt_sum (k : Fin 4) (r : Fin 8) (l : Fin 128) : ∀ (n : ℕ) (h : n < cfg0.N),
    outsAt0 m c n h (ix3 k r l) = ∑ j ∈ Finset.range (n % 16 + 1), addend m c k (n - n % 16 + j)
  | 0, h => by
    refine (outsAt_A_apply m c ⟨0, h⟩ rfl k r l).trans ?_
    rw [show 0 % 16 + 1 = 1 from rfl, Finset.sum_range_one]
    exact (addend_of_lt m c k 0 h).symm
  | n + 1, h => by
    by_cases h0 : (n + 1) % 16 = 0
    · refine (outsAt_A_apply m c ⟨n + 1, h⟩ h0 k r l).trans ?_
      rw [h0, Finset.sum_range_one]
      exact (addend_of_lt m c k (n + 1) h).symm
    · refine (outsAt_B_apply m c ⟨n + 1, h⟩ h0 k r l).trans ?_
      have ih := outsAt_sum k r l n (Nat.lt_of_succ_lt h)
      have e1 : (n + 1) % 16 = n % 16 + 1 := by omega
      have e2 : n + 1 - (n % 16 + 1) = n - n % 16 := by omega
      have e3 : n - n % 16 + (n % 16 + 1) = n + 1 := by omega
      rw [e1, e2, Finset.sum_range_succ _ (n % 16 + 1), e3, addend_of_lt m c k (n + 1) h]
      exact congrArg (fun z => z + partAt m c ⟨n + 1, h⟩ k) ih

/-- After a core's last point: the sum over its sixteen points. -/
theorem outsAt_last (g : Fin 2) (k : Fin 4) (r : Fin 8) (l : Fin 128) :
    outsAt0 m c (pt g 15).val (pt g 15).isLt (ix3 k r l) = ∑ s : Fin 16, partAt m c (pt g s) k := by
  refine (outsAt_sum m c k r l (pt g 15).val (pt g 15).isLt).trans ?_
  have hg := g.isLt
  have e1 : (pt g 15).val % 16 + 1 = 16 := by show (g.val * 16 + 15) % 16 + 1 = 16; omega
  have e2 : (pt g 15).val - (pt g 15).val % 16 = g.val * 16 := by show (g.val * 16 + 15) - (g.val * 16 + 15) % 16 = g.val * 16; omega
  rw [e1, e2, Finset.sum_range]
  exact Finset.sum_congr rfl fun s _ => addend_of_lt m c k (g.val * 16 + s.val) (pt g s).isLt

end Points

/-! ## The output array after the run

The output's block at point `t` is rows `8·(t / 16)` … of the array, every plane and lane; it is written back at the last point of each
core only, and the two cores' blocks are disjoint. -/

section Final

/-- The output window's block index at point `t`: (0, t / 16, 0). -/
theorem index6 : ∀ t : Fin cfg0.N, win0_6.index t 0 = 0 ∧ win0_6.index t 1 = t.val / 16 ∧ win0_6.index t 2 = 0 :=
  (by decide +kernel : ∀ t : Fin grid0.N, win0_6.index t 0 = 0 ∧ win0_6.index t 1 = t.val / 16 ∧ win0_6.index t 2 = 0)

/-- The blocks written back at different points are disjoint. -/
theorem disj6 (t t' : Fin cfg0.N) (hf : (cfg0.win 6).flush t = true) (hf' : (cfg0.win 6).flush t' = true) (hne : t ≠ t') :
    Disjoint ((cfg0.win 6).blk t).view.set ((cfg0.win 6).blk t').view.set := by
  have h := (flush0_6 t).mp hf
  have h' := (flush0_6 t').mp hf'
  have hN : cfg0.N = 32 := N_0
  have ht := t.isLt
  have ht' := t'.isLt
  have hv : t.val ≠ t'.val := fun e => hne (Fin.ext e)
  have hi := (index6 t).2.1
  have hi' := (index6 t').2.1
  show Disjoint ((View.whole main_v12).slice (win0_6.rect t)).set ((View.whole main_v12).slice (win0_6.rect t')).set
  rw [View.set_slice_whole, View.set_slice_whole]
  refine Rect.unit_disjoint (1 : Fin 3) ?_
  show win0_6.index t 1 * 8 + 8 ≤ win0_6.index t' 1 * 8 ∨ win0_6.index t' 1 * 8 + 8 ≤ win0_6.index t 1 * 8
  rw [hi, hi']
  omega

/-- The block's index (k, r, l) at the last point of core `g` sits in the array at (k, 8·g + r, l). -/
theorem emb6 (g : Fin 2) (k : Fin 4) (r : Fin 8) (l : Fin 128) :
    ((cfg0.win 6).blk (pt g 15)).view.emb (ix3 k r l)
      = (ix3 k (⟨g.val * 8 + r.val, by have := g.isLt; have := r.isLt; omega⟩ : Fin 16) l : S4x16x128.Idx) := by
  obtain ⟨i0, i1, i2⟩ := index6 (pt g 15)
  have hg := g.isLt
  funext a
  apply Fin.ext
  show ((win0_6.rect (pt g 15)).emb (ix3 k r l) a : ℕ) = _
  rw [Pipeline.Window.rect_emb_val]
  match a with
  | ⟨0, _⟩ => show win0_6.index (pt g 15) 0 * 4 + k.val = k.val; rw [i0]; omega
  | ⟨1, _⟩ =>
    show win0_6.index (pt g 15) 1 * 8 + r.val = g.val * 8 + r.val
    rw [i1]
    show (g.val * 16 + 15) / 16 * 8 + r.val = g.val * 8 + r.val
    omega
  | ⟨2, _⟩ => show win0_6.index (pt g 15) 2 * 128 + l.val = l.val; rw [i2]; omega

end Final

theorem final_arr (k : Fin 4) (g : Fin 2) (r : Fin 8) (l : Fin 128) :
    ((dats m 0 c).arrAt 6 cfg0.N : S4x16x128.Idx → EReal) (ix3 k (⟨g.val * 8 + r.val, by have := g.isLt; have := r.isLt; omega⟩ : Fin 16) l)
      = ∑ s : Fin 16, partAt m c (pt g s) k := by
  have hf : (cfg0.win 6).flush (pt g 15) = true :=
    (flush0_6 (pt g 15)).mpr (by show (g.val * 16 + 15) % 16 = 15; omega)
  have h := (dats m 0 c).arrAt_emb_eq_flushed 6 disj6 (pt g 15) hf (ix3 k r l)
  rw [emb6 g k r l] at h
  refine h.trans ?_
  show (dats m 0 c).after 6 (pt g 15) (ix3 k r l) = _
  rw [after0_6]
  exact outsAt_last m c g k r l

end Cert.KernelIdeal.KAcc

end
-- ==== Proof.KBlocks.lean ====
/- The input blocks of a grid point, read off the argument arrays: block `t` of the proxies, inverse norms, effective numbers and
   learned similarities is the stretch of 512 classes from class `512·t`; the samples and targets are staged whole. -/
import proofs.«108357_j10222022165009_2_alg».proof.Proof.KPay
import proofs.«108357_j10222022165009_2_alg».proof.Proof.Gen.KernelIdeal.Frame

noncomputable section

namespace Cert.KernelIdeal.KBlocks

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (c : Dev nD)

/-- The class that column `q` of grid point `t`'s block is. -/
def clsOf (t : Fin cfg0.N) (q : Fin 512) : Fin 16384 :=
  ⟨t.val * 512 + q.val, by have h1 := t.isLt; have h2 : cfg0.N = 32 := N_0; have h3 := q.isLt; omega⟩

/-! ## Where each window's block sits at a grid point -/

/-- The block indices of the six input windows at point `t`, and the point's number from its two coordinates: the samples
    and targets always at block (0, 0), the proxies at block row `t`, the three per-class rows at block column `t`. -/
private theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ ((grid0.coords t) 0).val * 16 + ((grid0.coords t) 1).val = t.val :=
  (by decide +kernel : ∀ t : Fin grid0.N, _)

/-- The class number the payload computes from the point's coordinates is `512·t + q`. -/
private theorem cls_eq (t : Fin cfg0.N) (q : Fin 512) : KPay.cls (grid0.coords t) q = (clsOf t q).val := by
  obtain ⟨-, -, -, -, -, -, -, -, -, -, -, -, e⟩ := idx_facts t
  show (((grid0.coords t) 0).val * 16 + ((grid0.coords t) 1).val) * 512 + q.val = t.val * 512 + q.val
  rw [e]

/-- The samples and the proxies as launched, at their literal types. -/
private abbrev xs : FVec Ideal S1024x512 .f32 := m ((c.tc : Thread nD τ).loc main_arg0)
private abbrev ps : FVec Ideal S16384x512 .f32 := m ((c.tc : Thread nD τ).loc main_arg2)

/-! ## The staged arrays as the region finds them, read at an index

Each staged array is what the host operations before the region made of an argument array: a change of float format (the
identity on the extended reals), a reshape (the same row-major position), or the inverse root of a row's sum of squares
plus ε. -/

/-- The samples, converted: entry by entry the argument's. -/
private theorem V_v3_apply (j : S1024x512.Idx) :
    V m c main_v3 j = m ((c.tc : Thread nD τ).loc main_arg0) j := by
  have e : (V m c main_v3 : S1024x512.Idx → EReal)
      = truncf (F := Ideal) .bf16 (m ((c.tc : Thread nD τ).loc main_arg0) : FVec Ideal S1024x512 .f32) bitsLt_bf16_f32 := by
    show StableHlo.after hostOps0 (fun b => m (c, b)) (Proc.devRef .tc main_v3) = _
    after_results
  exact congrFun e j

/-- The proxies, converted: entry by entry the argument's. -/
private theorem V_v4_apply (j : S16384x512.Idx) :
    V m c main_v4 j = m ((c.tc : Thread nD τ).loc main_arg2) j := by
  have e : (V m c main_v4 : S16384x512.Idx → EReal)
      = truncf (F := Ideal) .bf16 (m ((c.tc : Thread nD τ).loc main_arg2) : FVec Ideal S16384x512 .f32) bitsLt_bf16_f32 := by
    show StableHlo.after hostOps0 (fun b => m (c, b)) (Proc.devRef .tc main_v4) = _
    after_results
  exact congrFun e j

/-- The targets as a column: row `b` is target `b`. -/
private theorem V_v0_apply (b : Fin 1024) :
    V m c main_v0 (ix2 b (0 : Fin 1)) = m ((c.tc : Thread nD τ).loc main_arg1) (ix1 b) := by
  have e : (V m c main_v0 : S1024x1.Idx → BitVec 32)
      = shapeCast S1024x1 (m ((c.tc : Thread nD τ).loc main_arg1)) shapeCasts_S1024_S1024x1 := by
    show StableHlo.after hostOps0 (fun b => m (c, b)) (Proc.devRef .tc main_v0) = _
    after_results
    rfl
  refine (congrFun e _).trans ?_
  exact shapeCast_apply _ shapeCasts_S1024_S1024x1 _ _ (by
    rw [Shape.rowMajor_val_one, Shape.rowMajor_val_two]
    show b.val = b.val * 1 + 0
    omega)

/-- The effective numbers as a row: column `i` is class `i`'s. -/
private theorem V_v1_apply (i : Fin 16384) :
    V m c main_v1 (ix2 (0 : Fin 1) i) = m ((c.tc : Thread nD τ).loc main_arg3) (ix1 i) := by
  have e : (V m c main_v1 : S1x16384.Idx → EReal)
      = shapeCast S1x16384 (m ((c.tc : Thread nD τ).loc main_arg3)) shapeCasts_S16384_S1x16384 := by
    show StableHlo.after hostOps0 (fun b => m (c, b)) (Proc.devRef .tc main_v1) = _
    after_results
    rfl
  exact (congrFun e _).trans (shapeCast_a_1a_apply _ shapeCasts_S16384_S1x16384 (0 : Fin 1) i)

/-- The learned similarities as a row: column `i` is class `i`'s. -/
private theorem V_v2_apply (i : Fin 16384) :
    V m c main_v2 (ix2 (0 : Fin 1) i) = m ((c.tc : Thread nD τ).loc main_arg4) (ix1 i) := by
  have e : (V m c main_v2 : S1x16384.Idx → EReal)
      = shapeCast S1x16384 (m ((c.tc : Thread nD τ).loc main_arg4)) shapeCasts_S16384_S1x16384 := by
    show StableHlo.after hostOps0 (fun b => m (c, b)) (Proc.devRef .tc main_v2) = _
    after_results
    rfl
  exact (congrFun e _).trans (shapeCast_a_1a_apply _ shapeCasts_S16384_S1x16384 (0 : Fin 1) i)

/-- The host's chain from the proxies to their inverse norms, as one function of the proxy array: the squares, each row's
    sum from zero, ε added, the inverse root, the column laid out as a row. -/
private def invNormRow (p : FVec Ideal S16384x512 .f32) : FVec Ideal S1x16384 .f32 :=
  shapeCast S1x16384
    (Host.rsqrt (F := Ideal) (s := S16384x1) (φ := .f32)
      (addf (F := Ideal) (s := S16384x1) (φ := .f32)
        (broadcastInDim S16384x1 ![0] bcast_S16384_S16384x1_0
          (Host.reduceAdd (F := Ideal) (mulf (F := Ideal) p p) (constant (F := Ideal) S_ .f32 0x00000000#32)
            reducesTo_S16384x512_S16384_d1 h_S_))
        (broadcastInDim S16384x1 ![] bcast_S_S16384x1 (constant (F := Ideal) S_ .f32 0x2B8CBCCC#32))))
    shapeCasts_S16384x1_S1x16384

/-- The staged row of inverse norms is that function of the proxy argument. -/
private theorem V_v11_eq :
    (V m c main_v11 : S1x16384.Idx → EReal) = invNormRow (m ((c.tc : Thread nD τ).loc main_arg2)) := by
  show StableHlo.after hostOps0 (fun b => m (c, b)) (Proc.devRef .tc main_v11) = _
  after_results
  rfl

/-- A row's sum on the host, at the extended reals: the initial value plus the sum of the row's 512 entries. -/
private theorem rowSum_apply (y : FVec Ideal S16384x512 .f32) (z : FVec Ideal S_ .f32) (i : Fin 16384) :
    Host.reduceAdd (F := Ideal) y z reducesTo_S16384x512_S16384_d1 h_S_ (ix1 i)
      = z (Shape.Idx.first h_S_) + ∑ k : Fin 512, y (ix2 i k) := by
  simp only [Host.reduceAdd, Ideal.hostReduceAdd_def]
  rw [Ideal.hostReduceAdd_single reducesTo_S16384x512_S16384_d1 (by decide)]
  refine congrArg (_ + ·) (Finset.sum_congr rfl fun k _ => ?_)
  exact congrArg y (funext fun a => Fin.ext (by match a with | ⟨0, _⟩ => rfl | ⟨1, _⟩ => rfl))

/-- The inverse root of a sum of two columns, entry by entry. -/
private theorem rsqrt_add_apply (u v : FVec Ideal S16384x1 .f32) (j : S16384x1.Idx) :
    Host.rsqrt (F := Ideal) (addf (F := Ideal) u v) j = Ideal.rsqrt (u j + v j) := rfl

/-- Column `i` of the row of inverse norms: the inverse root of proxy `i`'s sum of squares plus ε. -/
private theorem invNormRow_apply (p : FVec Ideal S16384x512 .f32) (i : Fin 16384) :
    invNormRow p (ix2 (0 : Fin 1) i) = Ideal.rsqrt ((∑ k : Fin 512, p (ix2 i k) * p (ix2 i k)) + Spec.fEps) := by
  unfold invNormRow
  -- the reshape keeps the row-major position: column `i` of the row is row `i` of the column
  refine (shapeCast_apply _ shapeCasts_S16384x1_S1x16384 (ix2 (0 : Fin 1) i) (ix2 i (0 : Fin 1)) (by
    rw [Shape.rowMajor_val_two, Shape.rowMajor_val_two]
    show i.val * 1 + 0 = 0 * 16384 + i.val
    omega)).trans ?_
  refine (rsqrt_add_apply _ _ _).trans ?_
  refine congrArg Ideal.rsqrt (congr (congrArg HAdd.hAdd ?_) ?_)
  · -- the column of row sums, read at row `i`: the sum of the squares, from zero
    refine (broadcastInDim_apply _ bcast_S16384_S16384x1_0 _ (ix2 i (0 : Fin 1)) (ix1 i) (fun a => match a with
      | ⟨0, _⟩ => by show i.val = if (16384 : Nat) = 1 then 0 else i.val; rw [if_neg (by decide)])).trans ?_
    refine (rowSum_apply _ _ i).trans ?_
    show Ideal.ofBits .f32 0x00000000#32 + ∑ k : Fin 512, p (ix2 i k) * p (ix2 i k) = _
    rw [Ideal.ofBits_zero_f32, zero_add]
  · -- ε, the same in every row
    exact broadcastInDim_apply _ bcast_S_S16384x1 _ (ix2 i (0 : Fin 1)) ix0 (fun a => a.elim0)

/-! ## The blocks at a grid point, read off the staged arrays -/

/-- The samples' block is the whole array. -/
private theorem iblk0_apply (t : Fin cfg0.N) (b : Fin 1024) (k : Fin 512) :
    iblk m c 0 t (ix2 b k) = m ((c.tc : Thread nD τ).loc main_arg0) (ix2 b k) := by
  refine Eq.trans ?_ (V_v3_apply m c (ix2 b k))
  show V m c main_v3 (((cfg0.win 0).blk t).view.emb (ix2 b k)) = V m c main_v3 (ix2 b k)
  refine congrArg (V m c main_v3) (funext fun a => Fin.ext ?_)
  obtain ⟨e0, e1, -⟩ := idx_facts t
  match a with
  | ⟨0, _⟩ => show win0_0.index t (0 : Fin 2) * 1024 + 1 * b.val = b.val; omega
  | ⟨1, _⟩ => show win0_0.index t (1 : Fin 2) * 512 + 1 * k.val = k.val; omega

/-- The targets' block is the whole column. -/
private theorem iblk1_apply (t : Fin cfg0.N) (b : Fin 1024) :
    iblk m c 1 t (ix2 b (0 : Fin 1)) = m ((c.tc : Thread nD τ).loc main_arg1) (ix1 b) := by
  refine Eq.trans ?_ (V_v0_apply m c b)
  show V m c main_v0 (((cfg0.win 1).blk t).view.emb (ix2 b (0 : Fin 1))) = V m c main_v0 (ix2 b (0 : Fin 1))
  refine congrArg (V m c main_v0) (funext fun a => Fin.ext ?_)
  obtain ⟨-, -, e0, e1, -⟩ := idx_facts t
  match a with
  | ⟨0, _⟩ => show win0_1.index t (0 : Fin 2) * 1024 + 1 * b.val = b.val; omega
  | ⟨1, _⟩ => show win0_1.index t (1 : Fin 2) * 1 + 1 * 0 = 0; omega

/-- Row `q` of the proxies' block at point `t` is proxy `512·t + q`. -/
private theorem iblk2_apply (t : Fin cfg0.N) (q k : Fin 512) :
    iblk m c 2 t (ix2 q k) = m ((c.tc : Thread nD τ).loc main_arg2) (ix2 (clsOf t q) k) := by
  refine Eq.trans ?_ (V_v4_apply m c (ix2 (clsOf t q) k))
  show V m c main_v4 (((cfg0.win 2).blk t).view.emb (ix2 q k)) = V m c main_v4 (ix2 (clsOf t q) k)
  refine congrArg (V m c main_v4) (funext fun a => Fin.ext ?_)
  obtain ⟨-, -, -, -, e0, e1, -⟩ := idx_facts t
  match a with
  | ⟨0, _⟩ => show win0_2.index t (0 : Fin 2) * 512 + 1 * q.val = t.val * 512 + q.val; omega
  | ⟨1, _⟩ => show win0_2.index t (1 : Fin 2) * 512 + 1 * k.val = k.val; omega

/-- Column `q` of the inverse norms' block at point `t` is class `512·t + q`'s. -/
private theorem iblk3_apply (t : Fin cfg0.N) (q : Fin 512) :
    iblk m c 3 t (ix2 (0 : Fin 1) q)
      = Ideal.rsqrt ((∑ k : Fin 512, ps m c (ix2 (clsOf t q) k) * ps m c (ix2 (clsOf t q) k)) + Spec.fEps) := by
  refine Eq.trans ?_ (invNormRow_apply (ps m c) (clsOf t q))
  refine Eq.trans ?_ (congrFun (V_v11_eq m c) (ix2 (0 : Fin 1) (clsOf t q)))
  show V m c main_v11 (((cfg0.win 3).blk t).view.emb (ix2 (0 : Fin 1) q)) = V m c main_v11 (ix2 (0 : Fin 1) (clsOf t q))
  refine congrArg (V m c main_v11) (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 512 + 1 * q.val = t.val * 512 + q.val; omega

/-- Column `q` of the effective numbers' block at point `t` is class `512·t + q`'s. -/
private theorem iblk4_apply (t : Fin cfg0.N) (q : Fin 512) :
    iblk m c 4 t (ix2 (0 : Fin 1) q) = m ((c.tc : Thread nD τ).loc main_arg3) (ix1 (clsOf t q)) := by
  refine Eq.trans ?_ (V_v1_apply m c (clsOf t q))
  show V m c main_v1 (((cfg0.win 4).blk t).view.emb (ix2 (0 : Fin 1) q)) = V m c main_v1 (ix2 (0 : Fin 1) (clsOf t q))
  refine congrArg (V m c main_v1) (funext fun a => Fin.ext ?_)
  obtain ⟨-, -, -, -, -, -, -, -, e0, e1, -⟩ := idx_facts t
  match a with
  | ⟨0, _⟩ => show win0_4.index t (0 : Fin 2) * 1 + 1 * 0 = 0; omega
  | ⟨1, _⟩ => show win0_4.index t (1 : Fin 2) * 512 + 1 * q.val = t.val * 512 + q.val; omega

/-- Column `q` of the learned similarities' block at point `t` is class `512·t + q`'s. -/
private theorem iblk5_apply (t : Fin cfg0.N) (q : Fin 512) :
    iblk m c 5 t (ix2 (0 : Fin 1) q) = m ((c.tc : Thread nD τ).loc main_arg4) (ix1 (clsOf t q)) := by
  refine Eq.trans ?_ (V_v2_apply m c (clsOf t q))
  show V m c main_v2 (((cfg0.win 5).blk t).view.emb (ix2 (0 : Fin 1) q)) = V m c main_v2 (ix2 (0 : Fin 1) (clsOf t q))
  refine congrArg (V m c main_v2) (funext fun a => Fin.ext ?_)
  obtain ⟨-, -, -, -, -, -, -, -, -, -, e0, e1, -⟩ := idx_facts t
  match a with
  | ⟨0, _⟩ => show win0_5.index t (0 : Fin 2) * 1 + 1 * 0 = 0; omega
  | ⟨1, _⟩ => show win0_5.index t (1 : Fin 2) * 512 + 1 * q.val = t.val * 512 + q.val; omega

/-! ## The payload's columns at a grid point are the specification's at class `512·t + q` -/

/-- The cosines' column from three blocks that are, entry by entry, the samples, proxy `cl`'s row and its inverse norm. -/
private theorem cB_eq (x0 : Vec Ideal S1024x512 .bf16) (x2 : Vec Ideal S512x512 .bf16) (x3 : Vec Ideal S1x512 .f32)
    (x : FVec Ideal S1024x512 .f32) (p : FVec Ideal S16384x512 .f32) (q : Fin 512) (cl : Fin 16384)
    (h0 : ∀ b k, x0 (ix2 b k) = x (ix2 b k)) (h2 : ∀ k, x2 (ix2 q k) = p (ix2 cl k))
    (h3 : x3 (ix2 (0 : Fin 1) q) = Ideal.rsqrt ((∑ k : Fin 512, p (ix2 cl k) * p (ix2 cl k)) + Spec.fEps)) :
    KPay.cB x0 x2 x3 q = Spec.cosK x p cl := by
  funext b
  show (∑ k : Fin 512, x0 (ix2 b k) * x2 (ix2 q k)) * x3 (ix2 (0 : Fin 1) q)
    = (∑ k : Fin 512, x (ix2 b k) * p (ix2 cl k)) * Ideal.rsqrt ((∑ k : Fin 512, p (ix2 cl k) * p (ix2 cl k)) + Spec.fEps)
  refine congr (congrArg HMul.hMul (Finset.sum_congr rfl fun k _ => ?_)) h3
  exact congr (congrArg HMul.hMul (h0 b k)) (h2 k)

theorem hB_iblk (t : Fin cfg0.N) (q : Fin 512) :
    KPay.hB (grid0.coords t) (iblk m c 1 t) q = Spec.hcol (m ((c.tc : Thread nD τ).loc main_arg1)) (clsOf t q) := by
  funext b
  show Spec.hot (iblk m c 1 t (ix2 b (0 : Fin 1))) (KPay.cls (grid0.coords t) q)
    = Spec.hot (m ((c.tc : Thread nD τ).loc main_arg1) (ix1 b)) (clsOf t q).val
  exact congr (congrArg Spec.hot (iblk1_apply m c t b)) (cls_eq t q)

theorem cB_iblk (t : Fin cfg0.N) (q : Fin 512) :
    KPay.cB (iblk m c 0 t) (iblk m c 2 t) (iblk m c 3 t) q
      = Spec.cosK (m ((c.tc : Thread nD τ).loc main_arg0)) (m ((c.tc : Thread nD τ).loc main_arg2)) (clsOf t q) :=
  cB_eq (iblk m c 0 t) (iblk m c 2 t) (iblk m c 3 t) (xs m c) (ps m c) q (clsOf t q)
    (fun b k => iblk0_apply m c t b k) (fun k => iblk2_apply m c t q k) (iblk3_apply m c t q)

theorem en_iblk (t : Fin cfg0.N) (q : Fin 512) :
    iblk m c 4 t (ix2 (0 : Fin 1) q) = m ((c.tc : Thread nD τ).loc main_arg3) (ix1 (clsOf t q)) := iblk4_apply m c t q

theorem ls_iblk (t : Fin cfg0.N) (q : Fin 512) :
    iblk m c 5 t (ix2 (0 : Fin 1) q) = m ((c.tc : Thread nD τ).loc main_arg4) (ix1 (clsOf t q)) := iblk5_apply m c t q

end Cert.KernelIdeal.KBlocks

end
-- ==== Proof.KSum.lean ====
/- The kernel visits the 16384 classes core by core, point by point, 512 at a time: summing over the two cores, the sixteen points
   of a core and the 512 columns of a point is summing over all classes once. -/
import proofs.«108357_j10222022165009_2_alg».proof.Proof.KAcc
import proofs.«108357_j10222022165009_2_alg».proof.Proof.KBlocks
import proofs.«108357_j10222022165009_2_alg».proof.Proof.Algebra

noncomputable section

namespace Cert.KernelIdeal.KSum

open Idealize.ShloMosaic Cert.KernelIdeal Cert.KernelIdeal.Gen

/-- `F` continued by zero to all of ℕ. -/
private def ext (F : Fin 16384 → EReal) (n : ℕ) : EReal := if h : n < 16384 then F ⟨n, h⟩ else 0

private theorem ext_val (F : Fin 16384 → EReal) (cl : Fin 16384) : F cl = ext F cl.val := by
  unfold ext; rw [dif_pos cl.isLt]

theorem sum_cls (F : Fin 16384 → EReal) :
    ∑ g : Fin 2, ∑ s : Fin 16, ∑ q : Fin 512, F (KBlocks.clsOf (KAcc.pt g s) q) = ∑ cl : Fin 16384, F cl := by
  -- all classes, as the numbers below 16384
  have e1 : ∑ cl : Fin 16384, F cl = ∑ n ∈ Finset.range 16384, ext F n := by
    rw [← Fin.sum_univ_eq_sum_range (ext F) 16384]
    exact Finset.sum_congr rfl fun cl _ => ext_val F cl
  -- 16384 = 32 · 512: thirty-two points of 512 columns
  have e2 : ∑ n ∈ Finset.range 16384, ext F n = ∑ i : Fin 32, ∑ j : Fin 512, ext F (i.val * 512 + j.val) := by
    have h := Algebra.sum_blocks 32 512 (ext F)
    rw [Fin.sum_univ_eq_sum_range (ext F) (32 * 512)] at h
    exact h
  -- 32 = 2 · 16: two cores of sixteen points
  have e3 : ∑ i : Fin 32, ∑ j : Fin 512, ext F (i.val * 512 + j.val)
      = ∑ g : Fin 2, ∑ s : Fin 16, ∑ j : Fin 512, ext F ((g.val * 16 + s.val) * 512 + j.val) := by
    have h := Algebra.sum_blocks 2 16 (fun n => ∑ j : Fin 512, ext F (n * 512 + j.val))
    rw [Fin.sum_univ_eq_sum_range (fun n => ∑ j : Fin 512, ext F (n * 512 + j.val)) (2 * 16)] at h
    rw [Fin.sum_univ_eq_sum_range (fun n => ∑ j : Fin 512, ext F (n * 512 + j.val)) 32]
    exact h
  rw [e1, e2, e3]
  refine Finset.sum_congr rfl fun g _ => Finset.sum_congr rfl fun s _ => Finset.sum_congr rfl fun q _ => ?_
  exact ext_val F _

end Cert.KernelIdeal.KSum

end
-- ==== Proof.KVal.lean ====
/- The kernel's result is the loss of Spec.lean: each grid point adds, to each of four running sums, the sum over its 512 classes of
   a per-class number; the points of a core accumulate into the core's rows of the output array; the operations after the region
   add the two cores and form the two quotients. -/
import proofs.«108357_j10222022165009_2_alg».proof.Proof.KTail
import proofs.«108357_j10222022165009_2_alg».proof.Proof.KAcc
import proofs.«108357_j10222022165009_2_alg».proof.Proof.KBlocks
import proofs.«108357_j10222022165009_2_alg».proof.Proof.KSum
import proofs.«108357_j10222022165009_2_alg».proof.Proof.Spec

noncomputable section

namespace Cert.KernelIdeal.KVal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (c : Dev nD)

/-- Class `cl`'s `k`-th number (present, negative weight, positive term, negative term), from the argument arrays. -/
def clsF (k : Fin 4) (cl : Fin 16384) : EReal :=
  match k with
  | 0 => Spec.clsPresent (m ((c.tc : Thread nD τ).loc main_arg1)) cl
  | 1 => Spec.clsNegW (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) cl
  | 2 => Spec.clsPosL (m ((c.tc : Thread nD τ).loc main_arg0)) (m ((c.tc : Thread nD τ).loc main_arg1)) (m ((c.tc : Thread nD τ).loc main_arg2)) cl
  | 3 => Spec.clsNegL (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) cl

/-- What a grid point adds to running sum `k` is the sum of the `k`-th number over the point's 512 classes. -/
theorem partAt_eq (t : Fin cfg0.N) (k : Fin 4) :
    KAcc.partAt m c t k = ∑ q : Fin 512, clsF m c k (KBlocks.clsOf t q) := by
  match k with
  | 0 =>
    show KPay.part0 _ _ = _
    unfold KPay.part0
    refine Finset.sum_congr rfl fun q _ => ?_
    rw [KBlocks.hB_iblk m c t q]
    rfl
  | 1 =>
    show KPay.part1 _ _ _ _ _ _ _ = _
    unfold KPay.part1
    refine Finset.sum_congr rfl fun q _ => ?_
    rw [KBlocks.hB_iblk m c t q, KBlocks.cB_iblk m c t q, KBlocks.en_iblk m c t q, KBlocks.ls_iblk m c t q]
    rfl
  | 2 =>
    show KPay.part2 _ _ _ _ _ = _
    unfold KPay.part2
    refine Finset.sum_congr rfl fun q _ => ?_
    rw [KBlocks.hB_iblk m c t q, KBlocks.cB_iblk m c t q]
    rfl
  | 3 =>
    show KPay.part3 _ _ _ _ _ _ _ = _
    unfold KPay.part3
    refine Finset.sum_congr rfl fun q _ => ?_
    rw [KBlocks.hB_iblk m c t q, KBlocks.cB_iblk m c t q, KBlocks.en_iblk m c t q, KBlocks.ls_iblk m c t q]
    rfl

/-- The output array after the kernel's run. -/
def outArr : FVec Ideal S4x16x128 .f32 := (dats m 0 c).arrAt 6 cfg0.N

/-- Plane `k`'s total over the two cores is the sum of the `k`-th number over all classes. -/
theorem tot_eq (k : Fin 4) :
    KTail.tot (outArr m c) (ix1 k) = ∑ cl : Fin 16384, clsF m c k cl := by
  rw [KTail.tot_apply, ← KSum.sum_cls]
  refine Finset.sum_congr rfl fun g _ => ?_
  have e := KAcc.final_arr m c k g (0 : Fin 8) (0 : Fin 128)
  rw [show (⟨g.val * 8, by have := g.isLt; omega⟩ : Fin 16) = ⟨g.val * 8 + (0 : Fin 8).val, by have := g.isLt; omega⟩ from Fin.ext rfl]
  refine (show outArr m c _ = _ from e).trans ?_
  exact Finset.sum_congr rfl fun s _ => partAt_eq m c (KAcc.pt g s) k

/-- The result buffer after the kernel program's run holds the loss. -/
theorem kernel_value :
    (Pipeline.afterTail₀ cfgs (dats m) 0 (V0 m) [hostOps1] c main_v27 : S_.Idx → EReal)
      = fun _ => Spec.loss (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine (KTail.tail_eq m c).trans ?_
  show KTail.tailFn (outArr m c) = _
  funext i
  rw [KTail.tailFn_apply, tot_eq, tot_eq, tot_eq, tot_eq]
  rfl

end Cert.KernelIdeal.KVal

end
-- ==== Proof.lean ====
/- The proof of `Cert.Claim`: the kernel and the reference both compute the loss of Proof/Spec.lean.
   The three frames are the programs' runs with the results dropped; the ideal pass rewrote nothing, so `preserves` is trivial; for
   `algebraic` the kernel's run ends with the result buffer at `Spec.loss` of the argument arrays (Proof/KVal.lean: the running sums of
   the grid points, the output array, the operations after the region) and the reference's run at its last stage, which is the same
   function of arguments that agree (Proof/RefSide.lean), the samples and proxies being finite under the precondition
   (Proof/Finite.lean). -/
import proofs.«108357_j10222022165009_2_alg».proof.Defs
import proofs.«108357_j10222022165009_2_alg».proof.Proof.Gen.Kernel
import proofs.«108357_j10222022165009_2_alg».proof.Proof.Gen.Kernel.Skeleton
import proofs.«108357_j10222022165009_2_alg».proof.Proof.Gen.Kernel.Launch
import proofs.«108357_j10222022165009_2_alg».proof.Proof.Gen.Kernel.Points
import proofs.«108357_j10222022165009_2_alg».proof.Proof.Gen.Kernel.Frame
import proofs.«108357_j10222022165009_2_alg».proof.Proof.Gen.KernelIdeal
import proofs.«108357_j10222022165009_2_alg».proof.Proof.Gen.KernelIdeal.Skeleton
import proofs.«108357_j10222022165009_2_alg».proof.Proof.Gen.KernelIdeal.Launch
import proofs.«108357_j10222022165009_2_alg».proof.Proof.Gen.KernelIdeal.Points
import proofs.«108357_j10222022165009_2_alg».proof.Proof.Gen.KernelIdeal.Frame
import proofs.«108357_j10222022165009_2_alg».proof.Proof.Gen.ReferenceIdeal
import proofs.«108357_j10222022165009_2_alg».proof.Proof.RefRun
import proofs.«108357_j10222022165009_2_alg».proof.Proof.RefRead
import proofs.«108357_j10222022165009_2_alg».proof.Proof.Gen.Pre_finite_inputs
import proofs.«108357_j10222022165009_2_alg».proof.Proof.Finite
import proofs.«108357_j10222022165009_2_alg».proof.Proof.RefSide
import proofs.«108357_j10222022165009_2_alg».proof.Proof.KVal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at the loss of the kernel program's argument arrays: the kernel's by its value (the frame run's
    post read at the result buffer), the reference's by its last stage at arguments that agree with the kernel's. -/
theorem algebraic : Cert.algebraic_KernelIdeal_ReferenceIdeal := by
  intro m ρ m' ρ' hpre hagree
  refine ⟨fun c => (fun _ => Cert.Spec.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))), ?_, ?_⟩
  · exact (θ_run Cert.KernelIdeal.defs _ _).mono (fun _ h c =>
      ⟨((h c).2 Cert.KernelIdeal.main_v27 (Pipeline.mem_restRefs_of Cert.KernelIdeal.main_v27 (by decide) (by decide))).trans
          (Cert.KernelIdeal.KVal.kernel_value m c),
        ((h c).2 Cert.KernelIdeal.main_arg0 (Pipeline.mem_restRefs_of Cert.KernelIdeal.main_arg0 (by decide) (by decide))).trans
          (Cert.KernelIdeal.Gen.W_main_arg0 m (Cert.KernelIdeal.Gen.dats m) c),
        ((h c).2 Cert.KernelIdeal.main_arg1 (Pipeline.mem_restRefs_of Cert.KernelIdeal.main_arg1 (by decide) (by decide))).trans
          (Cert.KernelIdeal.Gen.W_main_arg1 m (Cert.KernelIdeal.Gen.dats m) c),
        ((h c).2 Cert.KernelIdeal.main_arg2 (Pipeline.mem_restRefs_of Cert.KernelIdeal.main_arg2 (by decide) (by decide))).trans
          (Cert.KernelIdeal.Gen.W_main_arg2 m (Cert.KernelIdeal.Gen.dats m) c),
        ((h c).2 Cert.KernelIdeal.main_arg3 (Pipeline.mem_restRefs_of Cert.KernelIdeal.main_arg3 (by decide) (by decide))).trans
          (Cert.KernelIdeal.Gen.W_main_arg3 m (Cert.KernelIdeal.Gen.dats m) c),
        ((h c).2 Cert.KernelIdeal.main_arg4 (Pipeline.mem_restRefs_of Cert.KernelIdeal.main_arg4 (by decide) (by decide))).trans
          (Cert.KernelIdeal.Gen.W_main_arg4 m (Cert.KernelIdeal.Gen.dats m) c)⟩)
      (Cert.KernelIdeal.Gen.run_main m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v77_eq, (hagree c).1, (hagree c).2.1, (hagree c).2.2.1, (hagree c).2.2.2.1, (hagree c).2.2.2.2]
    exact Cert.ReferenceIdeal.RefSide.ref_value _ _ _ _ _ (Cert.Finite.finite_arg0 m hpre c) (Cert.Finite.finite_arg2 m hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
